-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56_0)) (v1 : (c : Dev Cert.KernelIdeal.nD) → Buf (Elt Ideal) ((c.tc : Thread Cert.KernelIdeal.nD Cert.KernelIdeal.τ).loc Cert.KernelIdeal.main_v58)) (v2 : (c : Dev Cert.KernelIdeal.nD) → Buf (Elt Ideal) ((c.tc : Thread Cert.KernelIdeal.nD Cert.KernelIdeal.τ).loc Cert.KernelIdeal.main_v60)) (v3 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56_0) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_v60) = v2 c
          ∧ r.2.mem ((c.tc : Thread Cert.KernelIdeal.nD Cert.KernelIdeal.τ).loc Cert.KernelIdeal.main_v61) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v54) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S32 : Shape := ⟨1, ![32]⟩
abbrev S10x4096 : Shape := ⟨2, ![10, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S32 : S_.BroadcastsInDim S32 (![] : Fin 0 → Fin S32.rank)
  reducesTo_S32_S_d0 : S32.ReducesTo [0] S_
  bcast_S_S10x4096 : S_.BroadcastsInDim S10x4096 (![] : Fin 0 → Fin S10x4096.rank)
  reducesTo_S10x4096_S_d0_1 : S10x4096.ReducesTo [0, 1] S_

variable [Facts]

def fn {F : FTy → Type} [FloatOps F] (main_arg0 : FVec F S8192x4096 .f32) (main_arg1 : IVec S32 32) (main_arg2 : IVec S32 32) (main_arg3 : IVec S32 32) (main_arg4 : FVec F S32 .f32) (main_arg5 : FVec F S10x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S32 .f32 := Host.absf main_arg4
  let main_cst_0 : FVec F S_ .f32 := constant S_ .f32 0x7F800000#32
  let main_v5 : FVec F S32 .f32 := broadcastInDim S32 ![] bcast_S_S32 main_cst_0
  let main_v6 : IVec S32 1 := cmpf .olt main_v4 main_v5
  let main_c_1 : IVec S_ 1 := constantI S_ 1 1#1
  let main_v7 : IVec S_ 1 := (fun x v => Host.reduce IntOp.andi x v reducesTo_S32_S_d0 h_S_) main_v6 main_c_1
  let main_v8 : IVec S_ 1 := andi main_v3 main_v7
  let main_v9 : FVec F S10x4096 .f32 := Host.absf main_arg5
  let main_cst_2 : FVec F S_ .f32 := constant S_ .f32 0x7F800000#32
  let main_v10 : FVec F S10x4096 .f32 := broadcastInDim S10x4096 ![] bcast_S_S10x4096 main_cst_2
  let main_v11 : IVec S10x4096 1 := cmpf .olt main_v9 main_v10
  let main_c_3 : IVec S_ 1 := constantI S_ 1 1#1
  let main_v12 : IVec S_ 1 := (fun x v => Host.reduce IntOp.andi x v reducesTo_S10x4096_S_d0_1 h_S_) main_v11 main_c_3
  let main_v13 : IVec S_ 1 := andi main_v8 main_v12
  main_v13
-- ==== Kernel.lean ====
abbrev S8192x4096 : Shape := ⟨2, ![8192, 4096]⟩
abbrev S32 : Shape := ⟨1, ![32]⟩
abbrev S10x4096 : Shape := ⟨2, ![10, 4096]⟩
abbrev S40960 : Shape := ⟨1, ![40960]⟩
abbrev S_ : Shape := ⟨0, ![]⟩
abbrev S32x1 : Shape := ⟨2, ![32, 1]⟩
abbrev S128 : Shape := ⟨1, ![128]⟩
abbrev S1x128 : Shape := ⟨2, ![1, 128]⟩
abbrev S32x128 : Shape := ⟨2, ![32, 128]⟩
abbrev S32x128x1 : Shape := ⟨3, ![32, 128, 1]⟩
abbrev S4096 : Shape := ⟨1, ![4096]⟩
abbrev S1x4096 : Shape := ⟨2, ![1, 4096]⟩
abbrev S256x4096 : Shape := ⟨2, ![256, 4096]⟩

abbrev nBuf : Space → Nat
  | .hbm => 88
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S32, .i32⟩
  | .hbm, ⟨2, _⟩ => ⟨S32, .i32⟩
  | .hbm, ⟨3, _⟩ => ⟨S32, .i32⟩
  | .hbm, ⟨4, _⟩ => ⟨S32, .f32⟩
  | .hbm, ⟨5, _⟩ => ⟨S10x4096, .f32⟩
  | .hbm, ⟨6, _⟩ => ⟨S40960, .f32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S32x1, .i32⟩
  | .hbm, ⟨16, _⟩ => ⟨S128, .i32⟩
  | .hbm, ⟨17, _⟩ => ⟨S1x128, .i32⟩
  | .hbm, ⟨18, _⟩ => ⟨S32x128, .i32⟩
  | .hbm, ⟨19, _⟩ => ⟨S32x128, .i32⟩
  | .hbm, ⟨20, _⟩ => ⟨S32x128, .i32⟩
  | .hbm, ⟨21, _⟩ => ⟨S_, .i32⟩
  | .hbm, ⟨22, _⟩ => ⟨S32x128, .i32⟩
  | .hbm, ⟨23, _⟩ => ⟨S32x128, .i1⟩
  | .hbm, ⟨24, _⟩ => ⟨S_, .i32⟩
  | .hbm, ⟨25, _⟩ => ⟨S32x128, .i32⟩
  | .hbm, ⟨26, _⟩ => ⟨S32x128, .i32⟩
  | .hbm, ⟨27, _⟩ => ⟨S32x128, .i32⟩
  | .hbm, ⟨28, _⟩ => ⟨S32x128x1, .i32⟩
  | .hbm, ⟨29, _⟩ => ⟨S32x128, .f32⟩
  | .hbm, ⟨30, _⟩ => ⟨S4096, .f32⟩
  | .hbm, ⟨31, _⟩ => ⟨S_, .i32⟩
  | .hbm, ⟨32, _⟩ => ⟨S32, .i32⟩
  | .hbm, ⟨33, _⟩ => ⟨S32, .i1⟩
  | .hbm, ⟨34, _⟩ => ⟨S_, .i32⟩
  | .hbm, ⟨35, _⟩ => ⟨S32, .i32⟩
  | .hbm, ⟨36, _⟩ => ⟨S32, .i1⟩
  | .hbm, ⟨37, _⟩ => ⟨S32, .i1⟩
  | .hbm, ⟨38, _⟩ => ⟨S32x128, .i1⟩
  | .hbm, ⟨39, _⟩ => ⟨S4096, .i1⟩
  | .hbm, ⟨40, _⟩ => ⟨S32x128, .i32⟩
  | .hbm, ⟨41, _⟩ => ⟨S4096, .i32⟩
  | .hbm, ⟨42, _⟩ => ⟨S32x128, .f32⟩
  | .hbm, ⟨43, _⟩ => ⟨S4096, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096, .f32⟩
  | .hbm, ⟨49, _⟩ => ⟨S_, .i32⟩
  | .hbm, ⟨50, _⟩ => ⟨S4096, .i32⟩
  | .hbm, ⟨51, _⟩ => ⟨S4096, .i1⟩
  | .hbm, ⟨52, _⟩ => ⟨S_, .i32⟩
  | .hbm, ⟨53, _⟩ => ⟨S4096, .i32⟩
  | .hbm, ⟨54, _⟩ => ⟨S4096, .i1⟩
  | .hbm, ⟨55, _⟩ => ⟨S_, .f32⟩
  | .hbm, ⟨56, _⟩ => ⟨S4096, .f32⟩
  | .hbm, ⟨57, _⟩ => ⟨S4096, .f32⟩
  | .hbm, ⟨58, _⟩ => ⟨S4096, .f32⟩
  | .hbm, ⟨59, _⟩ => ⟨S_, .i32⟩
  | .hbm, ⟨60, _⟩ => ⟨S4096, .i32⟩
  | .hbm, ⟨61, _⟩ => ⟨S4096, .i1⟩
  | .hbm, ⟨62, _⟩ => ⟨S_, .i32⟩
  | .hbm, ⟨63, _⟩ => ⟨S4096, .i32⟩
  | .hbm, ⟨64, _⟩ => ⟨S4096, .i1⟩
  | .hbm, ⟨65, _⟩ => ⟨S4096, .i1⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S_, .f32⟩
  | .hbm, ⟨70, _⟩ => ⟨S4096, .f32⟩
  | .hbm, ⟨71, _⟩ => ⟨S4096, .f32⟩
  | .hbm, ⟨72, _⟩ => ⟨S1x4096, .f32⟩
  | .hbm, ⟨73, _⟩ => ⟨S_, .f32⟩
  | .hbm, ⟨74, _⟩ => ⟨S4096, .f32⟩
  | .hbm, ⟨75, _⟩ => ⟨S4096, .f32⟩
  | .hbm, ⟨76, _⟩ => ⟨S1x4096, .f32⟩
  | .hbm, ⟨77, _⟩ => ⟨S8192x4096, .f32⟩
  | .hbm, ⟨78, _⟩ => ⟨S1x4096, .f32⟩
  | .hbm, ⟨79, _⟩ => ⟨S1x4096, .f32⟩
  | .hbm, ⟨80, _⟩ => ⟨S32x128, .f32⟩
  | .hbm, ⟨81, _⟩ => ⟨S_, .f32⟩
  | .hbm, ⟨82, _⟩ => ⟨S32, .f32⟩
  | .hbm, ⟨83, _⟩ => ⟨S32x128, .f32⟩
  | .hbm, ⟨84, _⟩ => ⟨S_, .f32⟩
  | .hbm, ⟨85, _⟩ => ⟨S32, .f32⟩
  | .hbm, ⟨86, _⟩ => ⟨S_, .f32⟩
  | .hbm, ⟨87, _⟩ => ⟨S32, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | .local _ .vmem, ⟨6, _⟩ => ⟨S1x4096, .f32⟩
  | .local _ .vmem, ⟨7, _⟩ => ⟨S1x4096, .f32⟩
  | .local _ .vmem, ⟨8, _⟩ => ⟨S1x4096, .f32⟩
  | .local _ .vmem, ⟨9, _⟩ => ⟨S1x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_5 : Ref sig .tc := ⟨.hbm, 49, rfl⟩
abbrev main_v36 : Ref sig .tc := ⟨.hbm, 50, rfl⟩
abbrev main_v37 : Ref sig .tc := ⟨.hbm, 51, rfl⟩
abbrev main_c_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_8 : Ref sig .tc := ⟨.hbm, 59, rfl⟩
abbrev main_v43 : Ref sig .tc := ⟨.hbm, 60, rfl⟩
abbrev main_v44 : Ref sig .tc := ⟨.hbm, 61, rfl⟩
abbrev main_c_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56_0 : Ref sig .tc := ⟨.hbm, 77, rfl⟩
abbrev main_v56_1 : Ref sig .tc := ⟨.hbm, 78, rfl⟩
abbrev main_v56_2 : Ref sig .tc := ⟨.hbm, 79, rfl⟩
abbrev main_v57 : Ref sig .tc := ⟨.hbm, 80, rfl⟩
abbrev main_cst_13 : Ref sig .tc := ⟨.hbm, 81, rfl⟩
abbrev main_v58 : Ref sig .tc := ⟨.hbm, 82, rfl⟩
abbrev main_v59 : Ref sig .tc := ⟨.hbm, 83, rfl⟩
abbrev main_cst_14 : Ref sig .tc := ⟨.hbm, 84, rfl⟩
abbrev main_v60 : Ref sig .tc := ⟨.hbm, 85, rfl⟩
abbrev main_cst_15 : Ref sig .tc := ⟨.hbm, 86, rfl⟩
abbrev main_v61 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v28 : BitVec 1 := Scalar.cmpi .eq arg0 c31_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S10x4096_S40960 : S10x4096.ShapeCasts S40960
  bcast_S_S32 : S_.BroadcastsInDim S32 (![] : Fin 0 → Fin S32.rank)
  bcast_S32_S32x1_0 : S32.BroadcastsInDim S32x1 (![0] : Fin 1 → Fin S32x1.rank)
  bcast_S128_S1x128_1 : S128.BroadcastsInDim S1x128 (![1] : Fin 1 → Fin S1x128.rank)
  bcast_S32x1_S32x128_0_1 : S32x1.BroadcastsInDim S32x128 (![0, 1] : Fin 2 → Fin S32x128.rank)
  bcast_S1x128_S32x128_0_1 : S1x128.BroadcastsInDim S32x128 (![0, 1] : Fin 2 → Fin S32x128.rank)
  bcast_S_S32x128 : S_.BroadcastsInDim S32x128 (![] : Fin 0 → Fin S32x128.rank)
  bcast_S32x128_S32x128x1_0_1 : S32x128.BroadcastsInDim S32x128x1 (![0, 1] : Fin 2 → Fin S32x128x1.rank)
  shapeCasts_S32x128_S4096 : S32x128.ShapeCasts S4096
  bcast_S32_S32x128_0 : S32.BroadcastsInDim S32x128 (![0] : Fin 1 → Fin S32x128.rank)
  bcast_S_S4096 : S_.BroadcastsInDim S4096 (![] : Fin 0 → Fin S4096.rank)
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S256x4096_S256x4096_0_0 : ∀ a, (![0, 0] : Fin 2 → Nat) a + S256x4096.size a ≤ S256x4096.size a
  h_S256x4096 : 0 < S256x4096.numel
  broadcasts_S1x4096_S256x4096 : S1x4096.Broadcasts S256x4096
  reduces_S256x4096_S4096 : S256x4096.Reduces [0] S4096
  shapeCasts_S1x4096_S32x128 : S1x4096.ShapeCasts S32x128
  reducesTo_S32x128_S32_d1 : S32x128.ReducesTo [1] S32
  h_S_ : 0 < S_.numel
  gather_S40960_S32x128x1_S32x128_n_0_n_n_0_2_1_wf : GatherDims.WF S40960 S32x128x1 S32x128 [] [0] [] [0] [] 2 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x4096.size a
  hwx0_3 : ∀ i : grid0.Coords, EltTy.bits .f32 = 32 ∨ (Rect.block (s := S8192x4096) S256x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)

variable [Facts₀]

def gather_S40960_S32x128x1_S32x128_n_0_n_n_0_2_1 : GatherDims S40960 S32x128x1 S32x128 where
  offsetDims := []
  collapsedSliceDims := [0]
  operandBatchingDims := []
  startIndicesBatchingDims := []
  startIndexMap := [0]
  indexVectorDim := 2
  sliceSizes := ![1]
  wf := gather_S40960_S32x128x1_S32x128_n_0_n_n_0_2_1_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v55) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v56_0) S256x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v56_1) S1x4096.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v56_2) S1x4096.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S32 : Shape := ⟨1, ![32]⟩
abbrev S10x4096 : Shape := ⟨2, ![10, 4096]⟩
abbrev S8192x32x128 : Shape := ⟨3, ![8192, 32, 128]⟩
abbrev S40960 : Shape := ⟨1, ![40960]⟩
abbrev S_ : Shape := ⟨0, ![]⟩
abbrev S32x1 : Shape := ⟨2, ![32, 1]⟩
abbrev S128 : Shape := ⟨1, ![128]⟩
abbrev S1x128 : Shape := ⟨2, ![1, 128]⟩
abbrev S32x128 : Shape := ⟨2, ![32, 128]⟩
abbrev S32x128x1 : Shape := ⟨3, ![32, 128, 1]⟩
abbrev S1x32x1 : Shape := ⟨3, ![1, 32, 1]⟩
abbrev S1x32x128 : Shape := ⟨3, ![1, 32, 128]⟩

abbrev nBuf : Space → Nat
  | .hbm => 76
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S32, .i32⟩
  | .hbm, ⟨2, _⟩ => ⟨S32, .i32⟩
  | .hbm, ⟨3, _⟩ => ⟨S32, .i32⟩
  | .hbm, ⟨4, _⟩ => ⟨S32, .f32⟩
  | .hbm, ⟨5, _⟩ => ⟨S10x4096, .f32⟩
  | .hbm, ⟨6, _⟩ => ⟨S8192x32x128, .f32⟩
  | .hbm, ⟨7, _⟩ => ⟨S40960, .f32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S32x1, .i32⟩
  | .hbm, ⟨17, _⟩ => ⟨S128, .i32⟩
  | .hbm, ⟨18, _⟩ => ⟨S1x128, .i32⟩
  | .hbm, ⟨19, _⟩ => ⟨S32x128, .i32⟩
  | .hbm, ⟨20, _⟩ => ⟨S32x128, .i32⟩
  | .hbm, ⟨21, _⟩ => ⟨S32x128, .i32⟩
  | .hbm, ⟨22, _⟩ => ⟨S_, .i32⟩
  | .hbm, ⟨23, _⟩ => ⟨S32x128, .i32⟩
  | .hbm, ⟨24, _⟩ => ⟨S32x128, .i1⟩
  | .hbm, ⟨25, _⟩ => ⟨S_, .i32⟩
  | .hbm, ⟨26, _⟩ => ⟨S32x128, .i32⟩
  | .hbm, ⟨27, _⟩ => ⟨S32x128, .i32⟩
  | .hbm, ⟨28, _⟩ => ⟨S32x128, .i32⟩
  | .hbm, ⟨29, _⟩ => ⟨S32x128x1, .i32⟩
  | .hbm, ⟨30, _⟩ => ⟨S32x128, .f32⟩
  | .hbm, ⟨31, _⟩ => ⟨S_, .i32⟩
  | .hbm, ⟨32, _⟩ => ⟨S32, .i32⟩
  | .hbm, ⟨33, _⟩ => ⟨S32, .i1⟩
  | .hbm, ⟨34, _⟩ => ⟨S_, .i32⟩
  | .hbm, ⟨35, _⟩ => ⟨S32, .i32⟩
  | .hbm, ⟨36, _⟩ => ⟨S32, .i1⟩
  | .hbm, ⟨37, _⟩ => ⟨S32, .i1⟩
  | .hbm, ⟨38, _⟩ => ⟨S1x32x1, .f32⟩
  | .hbm, ⟨39, _⟩ => ⟨S1x32x128, .f32⟩
  | .hbm, ⟨40, _⟩ => ⟨S1x32x128, .f32⟩
  | .hbm, ⟨41, _⟩ => ⟨S1x32x128, .f32⟩
  | .hbm, ⟨42, _⟩ => ⟨S8192x32x128, .f32⟩
  | .hbm, ⟨43, _⟩ => ⟨S8192x32x128, .f32⟩
  | .hbm, ⟨44, _⟩ => ⟨S_, .f32⟩
  | .hbm, ⟨45, _⟩ => ⟨S1x32x1, .f32⟩
  | .hbm, ⟨46, _⟩ => ⟨S1x32x1, .f32⟩
  | .hbm, ⟨47, _⟩ => ⟨S8192x32x128, .f32⟩
  | .hbm, ⟨48, _⟩ => ⟨S8192x32x128, .f32⟩
  | .hbm, ⟨49, _⟩ => ⟨S8192x32x128, .f32⟩
  | .hbm, ⟨50, _⟩ => ⟨S8192x32x128, .f32⟩
  | .hbm, ⟨51, _⟩ => ⟨S8192x32x128, .f32⟩
  | .hbm, ⟨52, _⟩ => ⟨S8192x32x128, .f32⟩
  | .hbm, ⟨53, _⟩ => ⟨S8192x32x128, .f32⟩
  | .hbm, ⟨54, _⟩ => ⟨S1x32x1, .i32⟩
  | .hbm, ⟨55, _⟩ => ⟨S_, .i32⟩
  | .hbm, ⟨56, _⟩ => ⟨S1x32x1, .i32⟩
  | .hbm, ⟨57, _⟩ => ⟨S1x32x1, .i1⟩
  | .hbm, ⟨58, _⟩ => ⟨S_, .i32⟩
  | .hbm, ⟨59, _⟩ => ⟨S1x32x1, .i32⟩
  | .hbm, ⟨60, _⟩ => ⟨S1x32x1, .i1⟩
  | .hbm, ⟨61, _⟩ => ⟨S8192x32x128, .i1⟩
  | .hbm, ⟨62, _⟩ => ⟨S8192x32x128, .f32⟩
  | .hbm, ⟨63, _⟩ => ⟨S8192x32x128, .i1⟩
  | .hbm, ⟨64, _⟩ => ⟨S8192x32x128, .f32⟩
  | .hbm, ⟨65, _⟩ => ⟨S1x32x1, .i1⟩
  | .hbm, ⟨66, _⟩ => ⟨S8192x32x128, .i1⟩
  | .hbm, ⟨67, _⟩ => ⟨S8192x32x128, .f32⟩
  | .hbm, ⟨68, _⟩ => ⟨S8192x4096, .f32⟩
  | .hbm, ⟨69, _⟩ => ⟨S_, .f32⟩
  | .hbm, ⟨70, _⟩ => ⟨S32, .f32⟩
  | .hbm, ⟨71, _⟩ => ⟨S8192x32x128, .f32⟩
  | .hbm, ⟨72, _⟩ => ⟨S_, .f32⟩
  | .hbm, ⟨73, _⟩ => ⟨S32, .f32⟩
  | .hbm, ⟨74, _⟩ => ⟨S_, .f32⟩
  | .hbm, ⟨75, _⟩ => ⟨S32, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_5 : Ref sig .tc := ⟨.hbm, 55, rfl⟩
abbrev main_v42 : Ref sig .tc := ⟨.hbm, 56, rfl⟩
abbrev main_v43 : Ref sig .tc := ⟨.hbm, 57, rfl⟩
abbrev main_c_6 : Ref sig .tc := ⟨.hbm, 58, rfl⟩
abbrev main_v44 : Ref sig .tc := ⟨.hbm, 59, rfl⟩
abbrev main_v45 : Ref sig .tc := ⟨.hbm, 60, rfl⟩
abbrev main_call0_v0 : Ref sig .tc := ⟨.hbm, 61, rfl⟩
abbrev main_v46 : Ref sig .tc := ⟨.hbm, 62, rfl⟩
abbrev main_call1_v0 : Ref sig .tc := ⟨.hbm, 63, rfl⟩
abbrev main_v47 : Ref sig .tc := ⟨.hbm, 64, rfl⟩
abbrev main_v48 : Ref sig .tc := ⟨.hbm, 65, rfl⟩
abbrev main_call2_v0 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩

abbrev nD : Nat := 1
abbrev τ : Topo := Topo.v7x

variable {F : FTy → Type} [FloatOps F]

class Facts₀ : Prop where
  shapeCasts_S8192x4096_S8192x32x128 : S8192x4096.ShapeCasts S8192x32x128
  shapeCasts_S10x4096_S40960 : S10x4096.ShapeCasts S40960
  bcast_S_S32 : S_.BroadcastsInDim S32 (![] : Fin 0 → Fin S32.rank)
  bcast_S32_S32x1_0 : S32.BroadcastsInDim S32x1 (![0] : Fin 1 → Fin S32x1.rank)
  bcast_S128_S1x128_1 : S128.BroadcastsInDim S1x128 (![1] : Fin 1 → Fin S1x128.rank)
  bcast_S32x1_S32x128_0_1 : S32x1.BroadcastsInDim S32x128 (![0, 1] : Fin 2 → Fin S32x128.rank)
  bcast_S1x128_S32x128_0_1 : S1x128.BroadcastsInDim S32x128 (![0, 1] : Fin 2 → Fin S32x128.rank)
  bcast_S_S32x128 : S_.BroadcastsInDim S32x128 (![] : Fin 0 → Fin S32x128.rank)
  bcast_S32x128_S32x128x1_0_1 : S32x128.BroadcastsInDim S32x128x1 (![0, 1] : Fin 2 → Fin S32x128x1.rank)
  bcast_S32_S1x32x1_1 : S32.BroadcastsInDim S1x32x1 (![1] : Fin 1 → Fin S1x32x1.rank)
  bcast_S32x128_S1x32x128_1_2 : S32x128.BroadcastsInDim S1x32x128 (![1, 2] : Fin 2 → Fin S1x32x128.rank)
  bcast_S1x32x1_S1x32x128_0_1_2 : S1x32x1.BroadcastsInDim S1x32x128 (![0, 1, 2] : Fin 3 → Fin S1x32x128.rank)
  bcast_S1x32x128_S8192x32x128_0_1_2 : S1x32x128.BroadcastsInDim S8192x32x128 (![0, 1, 2] : Fin 3 → Fin S8192x32x128.rank)
  bcast_S_S1x32x1 : S_.BroadcastsInDim S1x32x1 (![] : Fin 0 → Fin S1x32x1.rank)
  bcast_S1x32x1_S8192x32x128_0_1_2 : S1x32x1.BroadcastsInDim S8192x32x128 (![0, 1, 2] : Fin 3 → Fin S8192x32x128.rank)
  shapeCasts_S8192x32x128_S8192x4096 : S8192x32x128.ShapeCasts S8192x4096
  reducesTo_S8192x32x128_S32_d0_2 : S8192x32x128.ReducesTo [0, 2] S32
  h_S_ : 0 < S_.numel
  gather_S40960_S32x128x1_S32x128_n_0_n_n_0_2_1_wf : GatherDims.WF S40960 S32x128x1 S32x128 [] [0] [] [0] [] 2 ![1]

variable [Facts₀]

def gather_S40960_S32x128x1_S32x128_n_0_n_n_0_2_1 : GatherDims S40960 S32x128x1 S32x128 where
  offsetDims := []
  collapsedSliceDims := [0]
  operandBatchingDims := []
  startIndicesBatchingDims := []
  startIndexMap := [0]
  indexVectorDim := 2
  sliceSizes := ![1]
  wf := gather_S40960_S32x128x1_S32x128_n_0_n_n_0_2_1_wf

class Facts : Prop extends Facts₀ where

variable [Facts]
-- ==== Proof.KernelPieces.lean ====
/-
  What one run of the kernel body leaves behind, case by case. The body stores the block x · m + a into the output
  block, adds the block's column sums (and column sums of squares) to two carried accumulators, which the first grid
  point zeroes beforehand, and at the last grid point copies the accumulators into the two telemetry outputs. Each
  stored value is the stored expression evaluated at the contents the body loaded: the input blocks, and for the
  accumulators what the point before left (the zero row at the first point).
-/
import proofs.«169301_j22883585753475_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offset of a whole-buffer access. -/
theorem hz : (![0, 0] : Fin 2 → Nat) = fun _ => 0 := funext fun a => by fin_cases a <;> rfl

/-- First point: the output block is the blend of the loaded blocks. -/
theorem out3_A (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S256x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (hc0 : cond0_0 i) (hc1 : ¬cond0_1 i)
    (x0 : Vec F S256x4096 .f32) (x1 x2 : Vec F S1x4096 .f32) :
    out0_A_3 c i arg1 harg1 arg2 harg2 arg3 harg3 arg4 harg4 arg5 harg5 arg6 harg6 arg7 harg7 arg8 harg8 hc0 hc1 x0 x1 x2 = k0_pay3 x0 x1 x2 := by
  unfold out0_A_3
  rw [View.read_writes_eq_canon _ _ _ (cover0_A_3 c i arg1 harg1 arg2 harg2 arg3 harg3 arg4 harg4 arg5 harg5 arg6 harg6 arg7 harg7 arg8 harg8 hc0 hc1 x0 x1 x2)]
  unfold kernelRun0_A
  dsimp only
  rw [View.canon_unit_zero hz]
  simp only [View.readAt_eq_ld, harg1.read_unread, harg2.read_unread, harg3.read_unread, harg7.read_unread, harg8.read_unread, View.ld_unit_zero (S := S256x4096) hz, View.ld_unit_zero (S := S1x4096) hz]

/-- Middle points: the same. -/
theorem out3_B (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S256x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (hc0 : ¬cond0_0 i) (hc1 : ¬cond0_1 i)
    (x0 : Vec F S256x4096 .f32) (x1 x2 xs0 xs1 : Vec F S1x4096 .f32) :
    out0_B_3 c i arg1 harg1 arg2 harg2 arg3 harg3 arg4 harg4 arg5 harg5 arg6 harg6 arg7 harg7 arg8 harg8 hc0 hc1 x0 x1 x2 xs0 xs1 = k0_pay3 x0 x1 x2 := by
  unfold out0_B_3
  rw [View.read_writes_eq_canon _ _ _ (cover0_B_3 c i arg1 harg1 arg2 harg2 arg3 harg3 arg4 harg4 arg5 harg5 arg6 harg6 arg7 harg7 arg8 harg8 hc0 hc1 x0 x1 x2 xs0 xs1)]
  unfold kernelRun0_B
  dsimp only
  rw [View.canon_unit_zero hz]
  simp only [View.readAt_eq_ld, harg1.read_unread, harg2.read_unread, harg3.read_unread, harg7.read_unread, harg8.read_unread, View.ld_unit_zero (S := S256x4096) hz, View.ld_unit_zero (S := S1x4096) hz]

/-- Last point: the same. -/
theorem out3_C (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S256x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (hc0 : ¬cond0_0 i) (hc1 : cond0_1 i)
    (x0 : Vec F S256x4096 .f32) (x1 x2 xs0 xs1 : Vec F S1x4096 .f32) :
    out0_C_3 c i arg1 harg1 arg2 harg2 arg3 harg3 arg4 harg4 arg5 harg5 arg6 harg6 arg7 harg7 arg8 harg8 hc0 hc1 x0 x1 x2 xs0 xs1 = k0_pay3 x0 x1 x2 := by
  unfold out0_C_3
  rw [View.read_writes_eq_canon _ _ _ (cover0_C_3 c i arg1 harg1 arg2 harg2 arg3 harg3 arg4 harg4 arg5 harg5 arg6 harg6 arg7 harg7 arg8 harg8 hc0 hc1 x0 x1 x2 xs0 xs1)]
  unfold kernelRun0_C
  dsimp only
  rw [View.canon_unit_zero hz]
  simp only [View.readAt_eq_ld, harg1.read_unread, harg2.read_unread, harg3.read_unread, harg7.read_unread, harg8.read_unread, View.ld_unit_zero (S := S256x4096) hz, View.ld_unit_zero (S := S1x4096) hz]

/-- First point: the sum accumulator is zeroed, then the block's column sums are added. -/
theorem s0_A (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S256x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (hc0 : cond0_0 i) (hc1 : ¬cond0_1 i)
    (x0 : Vec F S256x4096 .f32) (x1 x2 : Vec F S1x4096 .f32) :
    sout0_A_0 c i arg1 harg1 arg2 harg2 arg3 harg3 arg4 harg4 arg5 harg5 arg6 harg6 arg7 harg7 arg8 harg8 hc0 hc1 x0 x1 x2 = k0_pay4 x0 (k0_pay1 (F := F)) := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x4096) hz, View.readCov_unit_zero (S := S1x4096) _ hz]
  simp only [View.readAt_eq_ld, harg1.read_unread, harg2.read_unread, harg3.read_unread, harg7.read_unread, harg8.read_unread, View.ld_unit_zero (S := S256x4096) hz, View.ld_unit_zero (S := S1x4096) hz]

/-- First point: likewise the accumulator of squares. -/
theorem s1_A (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S256x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (hc0 : cond0_0 i) (hc1 : ¬cond0_1 i)
    (x0 : Vec F S256x4096 .f32) (x1 x2 : Vec F S1x4096 .f32) :
    sout0_A_1 c i arg1 harg1 arg2 harg2 arg3 harg3 arg4 harg4 arg5 harg5 arg6 harg6 arg7 harg7 arg8 harg8 hc0 hc1 x0 x1 x2 = k0_pay5 x0 (k0_pay2 (F := F)) := by
  unfold sout0_A_1
  rw [View.read_writes_eq_canon _ _ _ (scover0_A_1 c i arg1 harg1 arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x4096) hz, View.readCov_unit_zero (S := S1x4096) _ hz]
  simp only [View.readAt_eq_ld, harg1.read_unread, harg2.read_unread, harg3.read_unread, harg7.read_unread, harg8.read_unread, View.ld_unit_zero (S := S256x4096) hz, View.ld_unit_zero (S := S1x4096) hz]

/-- Middle points: the block's column sums are added to what the point before left. -/
theorem s0_B (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S256x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (hc0 : ¬cond0_0 i) (hc1 : ¬cond0_1 i)
    (x0 : Vec F S256x4096 .f32) (x1 x2 xs0 xs1 : Vec F S1x4096 .f32) :
    sout0_B_0 c i arg1 harg1 arg2 harg2 arg3 harg3 arg4 harg4 arg5 harg5 arg6 harg6 arg7 harg7 arg8 harg8 hc0 hc1 x0 x1 x2 xs0 xs1 = k0_pay4 x0 xs0 := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 xs0 xs1)]
  unfold kernelRun0_B
  dsimp only
  rw [View.canon_unit_zero hz]
  simp only [View.readAt_eq_ld, harg1.read_unread, harg2.read_unread, harg3.read_unread, harg7.read_unread, harg8.read_unread, View.ld_unit_zero (S := S256x4096) hz, View.ld_unit_zero (S := S1x4096) hz]

/-- Middle points: likewise for the squares. -/
theorem s1_B (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S256x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (hc0 : ¬cond0_0 i) (hc1 : ¬cond0_1 i)
    (x0 : Vec F S256x4096 .f32) (x1 x2 xs0 xs1 : Vec F S1x4096 .f32) :
    sout0_B_1 c i arg1 harg1 arg2 harg2 arg3 harg3 arg4 harg4 arg5 harg5 arg6 harg6 arg7 harg7 arg8 harg8 hc0 hc1 x0 x1 x2 xs0 xs1 = k0_pay5 x0 xs1 := by
  unfold sout0_B_1
  rw [View.read_writes_eq_canon _ _ _ (scover0_B_1 c i arg1 harg1 arg2 harg2 arg3 harg3 arg4 harg4 arg5 harg5 arg6 harg6 arg7 harg7 arg8 harg8 hc0 hc1 x0 x1 x2 xs0 xs1)]
  unfold kernelRun0_B
  dsimp only
  rw [View.canon_unit_zero hz]
  simp only [View.readAt_eq_ld, harg1.read_unread, harg2.read_unread, harg3.read_unread, harg7.read_unread, harg8.read_unread, View.ld_unit_zero (S := S256x4096) hz, View.ld_unit_zero (S := S1x4096) hz]

/-- Last point: the accumulator is updated as at the middle points. -/
theorem s0_C (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S256x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (hc0 : ¬cond0_0 i) (hc1 : cond0_1 i)
    (x0 : Vec F S256x4096 .f32) (x1 x2 xs0 xs1 : Vec F S1x4096 .f32) :
    sout0_C_0 c i arg1 harg1 arg2 harg2 arg3 harg3 arg4 harg4 arg5 harg5 arg6 harg6 arg7 harg7 arg8 harg8 hc0 hc1 x0 x1 x2 xs0 xs1 = k0_pay4 x0 xs0 := by
  unfold sout0_C_0
  rw [View.read_writes_eq_canon _ _ _ (scover0_C_0 c i arg1 harg1 arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg1.read_unread, harg2.read_unread, harg3.read_unread, harg7.read_unread, harg8.read_unread, View.ld_unit_zero (S := S256x4096) hz, View.ld_unit_zero (S := S1x4096) hz]

/-- Last point: likewise for the squares. -/
theorem s1_C (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S256x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (hc0 : ¬cond0_0 i) (hc1 : cond0_1 i)
    (x0 : Vec F S256x4096 .f32) (x1 x2 xs0 xs1 : Vec F S1x4096 .f32) :
    sout0_C_1 c i arg1 harg1 arg2 harg2 arg3 harg3 arg4 harg4 arg5 harg5 arg6 harg6 arg7 harg7 arg8 harg8 hc0 hc1 x0 x1 x2 xs0 xs1 = k0_pay5 x0 xs1 := by
  unfold sout0_C_1
  rw [View.read_writes_eq_canon _ _ _ (scover0_C_1 c i arg1 harg1 arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz]
  simp only [View.readAt_eq_ld, harg1.read_unread, harg2.read_unread, harg3.read_unread, harg7.read_unread, harg8.read_unread, View.ld_unit_zero (S := S256x4096) hz, View.ld_unit_zero (S := S1x4096) hz]

/-- Last point: the first telemetry output receives the updated sum accumulator. -/
theorem o4_C (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S256x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (hc0 : ¬cond0_0 i) (hc1 : cond0_1 i)
    (x0 : Vec F S256x4096 .f32) (x1 x2 xs0 xs1 : Vec F S1x4096 .f32) :
    out0_C_4 c i arg1 harg1 arg2 harg2 arg3 harg3 arg4 harg4 arg5 harg5 arg6 harg6 arg7 harg7 arg8 harg8 hc0 hc1 x0 x1 x2 xs0 xs1 = k0_pay4 x0 xs0 := by
  unfold out0_C_4
  rw [View.read_writes_eq_canon _ _ _ (cover0_C_4 c i arg1 harg1 arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz, View.readCov_unit_zero (S := S1x4096) _ hz]
  simp only [View.readAt_eq_ld, harg1.read_unread, harg2.read_unread, harg3.read_unread, harg7.read_unread, harg8.read_unread, View.ld_unit_zero (S := S256x4096) hz, View.ld_unit_zero (S := S1x4096) hz]

/-- Last point: the second telemetry output receives the updated accumulator of squares. -/
theorem o5_C (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S256x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S1x4096 .f32) (harg7 : arg7.IsWhole) (arg8 : Memref sig .tc .vmem S1x4096 .f32) (harg8 : arg8.IsWhole) (hc0 : ¬cond0_0 i) (hc1 : cond0_1 i)
    (x0 : Vec F S256x4096 .f32) (x1 x2 xs0 xs1 : Vec F S1x4096 .f32) :
    out0_C_5 c i arg1 harg1 arg2 harg2 arg3 harg3 arg4 harg4 arg5 harg5 arg6 harg6 arg7 harg7 arg8 harg8 hc0 hc1 x0 x1 x2 xs0 xs1 = k0_pay5 x0 xs1 := by
  unfold out0_C_5
  rw [View.read_writes_eq_canon _ _ _ (cover0_C_5 c i arg1 harg1 arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz, View.readCov_unit_zero (S := S1x4096) _ hz]
  simp only [View.readAt_eq_ld, harg1.read_unread, harg2.read_unread, harg3.read_unread, harg7.read_unread, harg8.read_unread, View.ld_unit_zero (S := S256x4096) hz, View.ld_unit_zero (S := S1x4096) hz]

end Cert.KernelIdeal.Pieces

end
-- ==== Proof.KernelChain.lean ====
/-
  The grid run as a recursion on the point. After point n the sum accumulator holds the n-fold iterate of "add the
  block's column sums" started from the zero row, and likewise the accumulator of squares; every point's output block
  is the blend of that point's input blocks; at the last point the two telemetry outputs receive the accumulators.
-/
import proofs.«169301_j22883585753475_2_alg».proof.Proof.KernelPieces

set_option maxRecDepth 16384

noncomputable section

open Idealize.ShloMosaic Idealize.ShloMosaic.TcCoe Idealize.SL.Sem
open Idealize.ShloMosaic.Pipeline (Dat)

namespace Cert.KernelIdeal.Chain

open Cert.KernelIdeal Cert.KernelIdeal.Gen Cert.KernelIdeal.Pieces

variable {F : FTy → Type} [FloatOps F]
variable (m : (ℓ : Loc nD τ sig) → Buf (Elt F) ℓ)

/-- What the point before t left (at the first point nothing is carried in and this is not consulted). -/
abbrev prev (c : Dev nD) (t : Fin cfg0.N) := outsAt0 m c (t.val - 1) (Nat.lt_of_le_of_lt (Nat.sub_le _ _) t.isLt)

set_option maxHeartbeats 1000000 in
/-- First point: the accumulators hold the first block's column sums over the zero row. -/
theorem first (c : Dev nD) (t : Fin cfg0.N) (h0 : t.val % 32 = 0) (h1 : ¬t.val % 32 = 31) :
    (outsAt0 m c t.val t.isLt).2.2.2.1 = k0_pay4 (iblk m c 0 t) (k0_pay1 (F := F))
      ∧ (outsAt0 m c t.val t.isLt).2.2.2.2 = k0_pay5 (iblk m c 0 t) (k0_pay2 (F := F)) := by
  rw [outsAt0_A m c t h0 h1]
  dsimp only
  exact ⟨s0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t),
    s1_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t)⟩

set_option maxHeartbeats 1000000 in
/-- Middle points: each accumulator is the point before's plus this block's column sums. -/
theorem middle (c : Dev nD) (t : Fin cfg0.N) (h0 : ¬t.val % 32 = 0) (h1 : ¬t.val % 32 = 31) :
    (outsAt0 m c t.val t.isLt).2.2.2.1 = k0_pay4 (iblk m c 0 t) (prev m c t).2.2.2.1
      ∧ (outsAt0 m c t.val t.isLt).2.2.2.2 = k0_pay5 (iblk m c 0 t) (prev m c t).2.2.2.2 := by
  rw [outsAt0_B m c t h0 h1]
  dsimp only
  exact ⟨s0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2,
    s1_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2⟩

set_option maxHeartbeats 1000000 in
/-- Last point: the accumulators are updated the same way, and the telemetry outputs receive them. -/
theorem last (c : Dev nD) (t : Fin cfg0.N) (h0 : ¬t.val % 32 = 0) (h1 : t.val % 32 = 31) :
    (outsAt0 m c t.val t.isLt).2.2.2.1 = k0_pay4 (iblk m c 0 t) (prev m c t).2.2.2.1
      ∧ (outsAt0 m c t.val t.isLt).2.2.2.2 = k0_pay5 (iblk m c 0 t) (prev m c t).2.2.2.2
      ∧ (outsAt0 m c t.val t.isLt).2.1 = k0_pay4 (iblk m c 0 t) (prev m c t).2.2.2.1
      ∧ (outsAt0 m c t.val t.isLt).2.2.1 = k0_pay5 (iblk m c 0 t) (prev m c t).2.2.2.2 := by
  rw [outsAt0_C m c t h0 h1]
  dsimp only
  exact ⟨s0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2,
    s1_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2,
    o4_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2,
    o5_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2⟩

set_option maxHeartbeats 1000000 in
/-- Every point's output block is the blend of its input blocks. -/
theorem out3_eq (c : Dev nD) (t : Fin cfg0.N) :
    (outsAt0 m c t.val t.isLt).1 = k0_pay3 (iblk m c 0 t) (iblk m c 1 t) (iblk m c 2 t) := by
  have hN : cfg0.N = 32 := N_0
  by_cases h0 : t.val % 32 = 0
  · have h1 : ¬t.val % 32 = 31 := by omega
    rw [outsAt0_A m c t h0 h1]
    dsimp only
    exact out3_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t)
  · by_cases h1 : t.val % 32 = 31
    · rw [outsAt0_C m c t h0 h1]
      dsimp only
      exact out3_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2
    · rw [outsAt0_B m c t h0 h1]
      dsimp only
      exact out3_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- The sum accumulator after point n: zero, then one block's column sums added per point. -/
def acc0 (c : Dev nD) : (n : ℕ) → n < cfg0.N → Vec F S1x4096 .f32
  | 0, h => k0_pay4 (iblk m c 0 ⟨0, h⟩) (k0_pay1 (F := F))
  | n + 1, h => k0_pay4 (iblk m c 0 ⟨n + 1, h⟩) (acc0 c n (Nat.lt_of_succ_lt h))

/-- The accumulator of squares after point n. -/
def acc1 (c : Dev nD) : (n : ℕ) → n < cfg0.N → Vec F S1x4096 .f32
  | 0, h => k0_pay5 (iblk m c 0 ⟨0, h⟩) (k0_pay2 (F := F))
  | n + 1, h => k0_pay5 (iblk m c 0 ⟨n + 1, h⟩) (acc1 c n (Nat.lt_of_succ_lt h))

/-- What the run carries from point to point is these two recursions. -/
theorem scratch_eq (c : Dev nD) : ∀ (n : ℕ) (h : n < cfg0.N),
    (outsAt0 m c n h).2.2.2.1 = acc0 m c n h ∧ (outsAt0 m c n h).2.2.2.2 = acc1 m c n h
  | 0, h => first m c ⟨0, h⟩ (Nat.zero_mod 32) (by rw [show (⟨0, h⟩ : Fin cfg0.N).val = 0 from rfl]; omega)
  | n + 1, h => by
    have hN : cfg0.N = 32 := N_0
    have ih := scratch_eq c n (Nat.lt_of_succ_lt h)
    have h0 : ¬(⟨n + 1, h⟩ : Fin cfg0.N).val % 32 = 0 := by dsimp only; omega
    by_cases h1 : (⟨n + 1, h⟩ : Fin cfg0.N).val % 32 = 31
    · obtain ⟨e0, e1, -, -⟩ := last m c ⟨n + 1, h⟩ h0 h1
      refine ⟨e0.trans ?_, e1.trans ?_⟩
      · show k0_pay4 _ (outsAt0 m c n _).2.2.2.1 = k0_pay4 _ (acc0 m c n _)
        rw [ih.1]
      · show k0_pay5 _ (outsAt0 m c n _).2.2.2.2 = k0_pay5 _ (acc1 m c n _)
        rw [ih.2]
    · obtain ⟨e0, e1⟩ := middle m c ⟨n + 1, h⟩ h0 h1
      refine ⟨e0.trans ?_, e1.trans ?_⟩
      · show k0_pay4 _ (outsAt0 m c n _).2.2.2.1 = k0_pay4 _ (acc0 m c n _)
        rw [ih.1]
      · show k0_pay5 _ (outsAt0 m c n _).2.2.2.2 = k0_pay5 _ (acc1 m c n _)
        rw [ih.2]

/-- At the last point the two telemetry outputs receive the accumulators' final contents. -/
theorem out45_eq (c : Dev nD) (t : Fin cfg0.N) (ht : t.val % 32 = 31) :
    (outsAt0 m c t.val t.isLt).2.1 = acc0 m c t.val t.isLt ∧ (outsAt0 m c t.val t.isLt).2.2.1 = acc1 m c t.val t.isLt := by
  have h0 : ¬t.val % 32 = 0 := by omega
  obtain ⟨e0, e1, e4, e5⟩ := last m c t h0 ht
  have s := scratch_eq m c t.val t.isLt
  exact ⟨e4.trans (e0.symm.trans s.1), e5.trans (e1.symm.trans s.2)⟩

end Cert.KernelIdeal.Chain

end
-- ==== Proof.LibCols.lean ====
/-
  Columns of a matrix read at an index, over the extended reals. The maximum down a matrix's columns, as a kernel takes
  it (a reduction over axis 0 folded from an accumulator word) and as a host reduction takes it (folded from an initial
  value), is at column `j` the fold of `max` over that column's entries. A column cut out of an array as a unit-width
  slice reads the array at that column, and four such columns joined side by side read, at (i, k), column k at row i.
  A vector laid out as one row and spread
  down the rows of a matrix reads, at (p, c), the vector's entry c. The float word for −∞ is the bottom element of the
  extended reals, so a fold of `max` that starts from it is the supremum.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value
import Mathlib.Data.Finset.Lattice.Fold

noncomputable section

namespace Cert.LibCols

open Idealize.ShloMosaic Idealize.ShloMosaic.ValueIdx

variable {α : Type}

/-- An `[b]` vector laid out as the row `[1, b]` and spread down the rows of an `[a, b]` matrix reads, at `(p, c)`,
    its entry `c`. -/
theorem row_spread_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

/-- Column `k` of an `[n, m]` array taken as a unit-width slice with the unit axis dropped reads, at `i`, the array at
    `(i, k)`. -/
theorem sliceCol_apply {n m : ℕ} (k : Fin m) (X : (⟨2, ![n, m]⟩ : Shape).Idx → α)
    (hs : (⟨2, ![n, m]⟩ : Shape).Slices ![0, k.val] ⟨2, ![n, 1]⟩)
    (hc : (⟨2, ![n, 1]⟩ : Shape).ShapeCasts ⟨1, ![n]⟩) (i : Fin n) :
    shapeCast ⟨1, ![n]⟩ (extractStridedSlice ⟨2, ![n, 1]⟩ ![0, k.val] X hs) hc (ix1 i) = X (ix2 i k) := by
  refine (shapeCast_apply _ hc (ix1 i) (ix2 i (0 : Fin 1)) ?_).trans ?_
  · rw [Shape.rowMajor_val_two, Shape.rowMajor_val_one]
    show i.val * 1 + 0 = i.val
    omega
  · exact extractStridedSlice_apply ![0, k.val] X hs (ix2 i (0 : Fin 1)) (ix2 i k) (fun a => match a with
      | ⟨0, _⟩ => by show i.val = 0 + i.val; omega
      | ⟨1, _⟩ => by show k.val = k.val + 0; omega)

/-- Four `[n, 1]` columns joined side by side read, at `(i, k)`, column `k` at row `i`. -/
theorem concat4_apply {n : ℕ} (c : Fin 4 → (⟨2, ![n, 1]⟩ : Shape).Idx → α)
    (h : Shape.Concatenates
      (([⟨⟨2, ![n, 1]⟩, c 0⟩, ⟨⟨2, ![n, 1]⟩, c 1⟩, ⟨⟨2, ![n, 1]⟩, c 2⟩, ⟨⟨2, ![n, 1]⟩, c 3⟩] :
        List ((s : Shape) × (s.Idx → α))).map (·.1)) ⟨2, ![n, 4]⟩ 1)
    (i : Fin n) (k : Fin 4) :
    concatenate ⟨2, ![n, 4]⟩ 1 [⟨⟨2, ![n, 1]⟩, c 0⟩, ⟨⟨2, ![n, 1]⟩, c 1⟩, ⟨⟨2, ![n, 1]⟩, c 2⟩, ⟨⟨2, ![n, 1]⟩, c 3⟩] h (ix2 i k)
      = c k (ix2 i (0 : Fin 1)) := by
  have hi : ∀ b : Fin (⟨2, ![n, 1]⟩ : Shape).rank, b.cast (rfl : (⟨2, ![n, 1]⟩ : Shape).rank = (⟨2, ![n, 4]⟩ : Shape).rank) ≠ 1 →
      ((ix2 i (0 : Fin 1) : (⟨2, ![n, 1]⟩ : Shape).Idx) b).val = ((ix2 i k : (⟨2, ![n, 4]⟩ : Shape).Idx) (b.cast rfl)).val := by
    intro b hb
    match b with
    | ⟨0, _⟩ => rfl
    | ⟨1, _⟩ => exact absurd rfl hb
  match k with
  | ⟨0, _⟩ => exact concatenate_apply_piece 1 _ h (ix2 i _) 0 (by show 0 < 4; omega) _ (c 0) rfl rfl 0 rfl (ix2 i 0) hi rfl
  | ⟨1, _⟩ => exact concatenate_apply_piece 1 _ h (ix2 i _) 1 (by show 1 < 4; omega) _ (c 1) rfl rfl 1 rfl (ix2 i 0) hi rfl
  | ⟨2, _⟩ => exact concatenate_apply_piece 1 _ h (ix2 i _) 2 (by show 2 < 4; omega) _ (c 2) rfl rfl 2 rfl (ix2 i 0) hi rfl
  | ⟨3, _⟩ => exact concatenate_apply_piece 1 _ h (ix2 i _) 3 (by show 3 < 4; omega) _ (c 3) rfl rfl 3 rfl (ix2 i 0) hi rfl

/-- Column `j` of a matrix with the row coordinate `k` put back is `(k, j)`. -/
theorem lift_col {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- The maximum down a matrix's columns, folded from the accumulator's word: at column `j`, the fold of `max` over the
    column. -/
theorem colMax_apply {a b : ℕ} (X : FVec Ideal ⟨2, ![a, b]⟩ .f32) (acc : BitVec 32)
    (h : (⟨2, ![a, b]⟩ : Shape).Reduces [0] (⟨1, ![b]⟩ : Shape)) (hφ : FKind.Formats .f32)
    (hacc : acc = FKind.maximumf.neutral .f32 hφ) (j : Fin b) :
    multiReduction .maximumf [0] ⟨1, ![b]⟩ X acc h hφ hacc (ix1 j)
      = (Finset.univ : Finset (Fin a)).fold max (Ideal.ofBits .f32 acc) (fun k => X (ix2 k j)) := by
  refine (Ideal.multiReduction_maximumf_single X acc h hφ hacc (ix1 j)).trans ?_
  have hf : (X ∘ h.lift (ix1 j)) = fun k : Fin a => X (ix2 k j) := funext fun k => congrArg X (lift_col h j k)
  exact congrArg (fun f => Finset.fold max (Ideal.ofBits .f32 acc) f (Finset.univ : Finset (Fin a))) hf

/-- A host reduction by `max` down a matrix's columns: at column `j`, the fold of `max` from the initial value over the
    column. -/
theorem hostColMax_apply {a b : ℕ} {u : Shape} (X : FVec Ideal ⟨2, ![a, b]⟩ .f32) (init : u.Idx → Ideal .f32)
    (h' : (⟨2, ![a, b]⟩ : Shape).ReducesTo [0] (⟨1, ![b]⟩ : Shape))
    (h : (⟨2, ![a, b]⟩ : Shape).Reduces [0] (⟨1, ![b]⟩ : Shape)) (hu : 0 < u.numel) (j : Fin b) :
    Host.reduce FloatOps.maximumf X init h' hu (ix1 j)
      = (Finset.univ : Finset (Fin a)).fold max (init (Shape.Idx.first hu)) (fun k => X (ix2 k j)) := by
  refine (Host.reduce_eq_fold_single FloatOps.maximumf X init h' h hu (ix1 j)).trans ?_
  have hf : (X ∘ h.lift (ix1 j)) = fun k : Fin a => X (ix2 k j) := funext fun k => congrArg X (lift_col h j k)
  exact congrArg (fun f => Finset.fold max (init (Shape.Idx.first hu)) f (Finset.univ : Finset (Fin a))) hf

/-- The f32 word of −∞ is the bottom element of the extended reals. -/
theorem ninf_eq_bot : Ideal.ofBits .f32 0xFF800000#32 = (⊥ : EReal) := by
  simp [Ideal.ofBits, Ideal.ieee]

/-- A fold of `max` that starts from −∞ is the supremum. -/
theorem fold_max_ninf {ι : Type*} (s : Finset ι) (f : ι → Ideal .f32) :
    s.fold max (Ideal.ofBits .f32 0xFF800000#32) f = s.sup f := by
  rw [ninf_eq_bot]; rfl

end Cert.LibCols

end
-- ==== Proof.LibColSum.lean ====
/-
  The sum down a matrix's columns read at an index, over the extended reals: a reduction by + over axis 0 of an
  [a, b] array, folded from the zero word, is at column j the sum over the rows k of the entry (k, j).
-/
import proofs.«169301_j22883585753475_2_alg».proof.Proof.LibCols

noncomputable section

namespace Cert.LibColSum

open Idealize.ShloMosaic Idealize.ShloMosaic.ValueIdx

/-- The sum down a matrix's columns: at column `j`, the sum over the column. -/
theorem colSum_apply {a b : ℕ} (X : FVec Ideal ⟨2, ![a, b]⟩ .f32) (acc : BitVec 32)
    (h : (⟨2, ![a, b]⟩ : Shape).Reduces [0] (⟨1, ![b]⟩ : Shape)) (hφ : FKind.Formats .f32)
    (hacc : acc = FKind.add.neutral .f32 hφ) (j : Fin b) :
    multiReduction .add [0] ⟨1, ![b]⟩ X acc h hφ hacc (ix1 j) = ∑ k : Fin a, X (ix2 k j) := by
  refine (Ideal.multiReduction_add_single X acc h hφ hacc (ix1 j)).trans ?_
  exact Finset.sum_congr rfl fun k _ => congrArg X (Cert.LibCols.lift_col h j k)

end Cert.LibColSum

end
-- ==== Proof.KernelPayloads.lean ====
import proofs.«169301_j22883585753475_2_alg».proof.Proof.Gen.KernelIdeal.Skeleton
import proofs.«169301_j22883585753475_2_alg».proof.Proof.LibColSum
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Payloads

open Cert.KernelIdeal Cert.KernelIdeal.Gen

/-- The stored block: entry (r, j) is x(r, j) · m(0, j) + a(0, j). -/
theorem pay3_apply (x0 : Vec Ideal S256x4096 .f32) (x1 x2 : Vec Ideal S1x4096 .f32) (r : Fin 256) (j : Fin 4096) :
    k0_pay3 x0 x1 x2 (ix2 r j) = x0 (ix2 r j) * x1 (ix2 (0 : Fin 1) j) + x2 (ix2 (0 : Fin 1) j) := by
  unfold k0_pay3
  simp only [shapeCast_self]
  show (x0 (ix2 r j) * broadcastTo S256x4096 x1 broadcasts_S1x4096_S256x4096 (ix2 r j)
    + broadcastTo S256x4096 x2 broadcasts_S1x4096_S256x4096 (ix2 r j) : EReal) = _
  rw [broadcastTo_1b_ab_apply x1 broadcasts_S1x4096_S256x4096 r j, broadcastTo_1b_ab_apply x2 broadcasts_S1x4096_S256x4096 r j]

/-- The running column sums: entry (0, j) is the carried value plus the block's column sum. -/
theorem pay4_apply (x0 : Vec Ideal S256x4096 .f32) (acc : Vec Ideal S1x4096 .f32) (j : Fin 4096) :
    k0_pay4 x0 acc (ix2 (0 : Fin 1) j) = acc (ix2 (0 : Fin 1) j) + ∑ r : Fin 256, x0 (ix2 r j) := by
  unfold k0_pay4
  simp only [shapeCast_self]
  show (acc (ix2 (0 : Fin 1) j) + shapeCast S1x4096 (multiReduction (F := Ideal) .add [0] S4096 x0 0x00000000#32 reduces_S256x4096_S4096 (.inl rfl) rfl) shapeCasts_S4096_S1x4096 (ix2 (0 : Fin 1) j) : EReal) = _
  rw [shapeCast_a_1a_apply _ shapeCasts_S4096_S1x4096 0 j]
  exact congrArg (fun z : EReal => acc (ix2 (0 : Fin 1) j) + z)
    (Cert.LibColSum.colSum_apply x0 0x00000000#32 reduces_S256x4096_S4096 (.inl rfl) rfl j)

/-- The running column sums of squares. -/
theorem pay5_apply (x0 : Vec Ideal S256x4096 .f32) (acc : Vec Ideal S1x4096 .f32) (j : Fin 4096) :
    k0_pay5 x0 acc (ix2 (0 : Fin 1) j) = acc (ix2 (0 : Fin 1) j) + ∑ r : Fin 256, x0 (ix2 r j) * x0 (ix2 r j) := by
  unfold k0_pay5
  simp only [shapeCast_self]
  show (acc (ix2 (0 : Fin 1) j) + shapeCast S1x4096 (multiReduction (F := Ideal) .add [0] S4096 (mulf x0 x0) 0x00000000#32 reduces_S256x4096_S4096 (.inl rfl) rfl) shapeCasts_S4096_S1x4096 (ix2 (0 : Fin 1) j) : EReal) = _
  rw [shapeCast_a_1a_apply _ shapeCasts_S4096_S1x4096 0 j]
  exact congrArg (fun z : EReal => acc (ix2 (0 : Fin 1) j) + z)
    (Cert.LibColSum.colSum_apply (mulf x0 x0) 0x00000000#32 reduces_S256x4096_S4096 (.inl rfl) rfl j)

/-- The reset value of both accumulators is zero everywhere. -/
theorem pay1_apply (i : S1x4096.Idx) : k0_pay1 (F := Ideal) i = 0 := by
  unfold k0_pay1
  simp only [shapeCast_self]
  exact Ideal.ofBits_zero_f32

theorem pay2_apply (i : S1x4096.Idx) : k0_pay2 (F := Ideal) i = 0 := by
  unfold k0_pay2
  simp only [shapeCast_self]
  exact Ideal.ofBits_zero_f32

end Cert.KernelIdeal.Payloads

end
-- ==== Proof.LibTiles.lean ====
/-
  Tiles of matrices read at an index, over variable extents. A block of columns cut out of a matrix reads the matrix
  at the shifted column. A plain matrix product into a zero accumulator, at the extended reals, is at (p, c) the sum
  over the shared axis of the left factor's row p times the right factor's column c. A four-term sum written as a left
  nest, alone or on top of a first term, is the sum over `Fin 4`. The float words of 0 and 1 are 0 and 1.
-/
import Idealize.ShloMosaic.PureOps.Ideal.Laws
import Idealize.ShloMosaic.Lib.ValueIdx
import Idealize.ShloMosaic.Lib.Pipeline.Value

noncomputable section

namespace Cert.LibTiles

open Idealize.ShloMosaic Idealize.ShloMosaic.ValueIdx
open scoped BigOperators

variable {α : Type}

/-- Columns `o … o + C' − 1` of an `[R, C]` matrix, read at `(p, j)`: the matrix at `(p, o + j)`. -/
theorem sliceCols_apply {R C C' : ℕ} (o : ℕ) (v : (⟨2, ![R, C]⟩ : Shape).Idx → α)
    (h : (⟨2, ![R, C]⟩ : Shape).Slices ![0, o] ⟨2, ![R, C']⟩) (p : Fin R) (j : Fin C') (hj : o + j.val < C) :
    extractStridedSlice ⟨2, ![R, C']⟩ ![0, o] v h (ix2 p j) = v (ix2 p ⟨o + j.val, hj⟩) :=
  extractStridedSlice_apply ![0, o] v h (ix2 p j) (ix2 p ⟨o + j.val, hj⟩) (fun a => match a with
    | ⟨0, _⟩ => by show p.val = 0 + p.val; omega
    | ⟨1, _⟩ => rfl)

/-- A plain `[M, K] · [K, N]` product into the zero accumulator, read at `(p, c)` at the extended reals: the sum over
    the shared axis. The four hypotheses say which coordinates the product's dimension numbers pair up. -/
theorem matmul_plain_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂) (p : Fin M) (c : Fin N) :
    matmul d prec lhs rhs (constant (F := Ideal) ⟨2, ![M, N]⟩ .f32 0x00000000#32) (ix2 p c)
      = ∑ k : Fin K, lhs (ix2 p k) * rhs (ix2 k c) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 k c := funext fun a => Fin.ext (by
    match a with
    | ⟨0, _⟩ => exact (hr0 _ _).trans hk
    | ⟨1, _⟩ => exact hr1 _ _)
  rw [el, er]

/-- Four terms added left to right are their sum over `Fin 4`. -/
theorem sum4_nest {M : Type*} [AddCommMonoid M] (f : Fin 4 → M) : ((f 0 + f 1) + f 2) + f 3 = ∑ k : Fin 4, f k :=
  (Fin.sum_univ_four f).symm

/-- Four terms added one after another on top of a first one are the first plus their sum over `Fin 4`. -/
theorem acc4_nest {M : Type*} [AddCommMonoid M] (a : M) (f : Fin 4 → M) :
    (((a + f 0) + f 1) + f 2) + f 3 = a + ∑ k : Fin 4, f k := by
  rw [Fin.sum_univ_four, add_assoc, add_assoc, add_assoc, add_assoc, add_assoc]

/-- The f32 word `0x3F800000` is the number one. -/
theorem one_f32 : Ideal.ofBits .f32 0x3F800000#32 = 1 := by
  simp [Ideal.ofBits, Ideal.ieee, -EReal.coe_mul]; norm_num

end Cert.LibTiles

end
-- ==== Proof.Spec.lean ====
/-
  The mathematics of the bridge, free of any program text.

  Blend. For a seed's switches (an activity bit and a strategy word) and real numbers x, α, w the multiply-add form
  x · M + A, with M = α·w + (1 − α), w or 1 and A = 0 or w chosen by the switches, equals the reference's case-by-case
  blend (α·w)·x + (1 − α)·x, w·x, x + w, or x itself. The first case is distributivity, which on the extended
  reals needs the three numbers to be real; the others are the unit laws.

  Sums. Summing a function of the 8192 rows tile by tile (32 tiles of 256 rows) is summing it over all rows, so
  the per-seed total of column sums accumulated tile by tile is the reference's sum over rows and the seed's columns.
-/
import Idealize.ShloMosaic.PureOps.Ideal
import Idealize.ShloMosaic.PureOps.Ideal.Laws
import Idealize.ShloMosaic.Lib.Affine
import Idealize.ShloMosaic.Lib.ValueIdx
import proofs.«169301_j22883585753475_2_alg».proof.Proof.LibTiles

noncomputable section

namespace Cert.Spec

open Idealize.ShloMosaic Idealize.ShloMosaic.ValueIdx
open scoped BigOperators

/-- Column 128·s + k: position k inside seed s's chunk of columns. -/
def col (s : Fin 32) (k : Fin 128) : Fin 4096 := ⟨128 * s.val + k.val, by omega⟩

/-- Row 256·t + r: row r of the t-th tile of rows. -/
def rowOf (t : Fin 32) (r : Fin 256) : Fin 8192 := ⟨256 * t.val + r.val, by omega⟩

/-- Tiles of rows and rows inside a tile are the rows. -/
def rowEquiv : Fin 32 × Fin 256 ≃ Fin 8192 where
  toFun q := rowOf q.1 q.2
  invFun b := (⟨b.val / 256, by omega⟩, ⟨b.val % 256, by omega⟩)
  left_inv q := by
    obtain ⟨t, r⟩ := q
    apply Prod.ext <;> apply Fin.ext <;> simp only [rowOf] <;> omega
  right_inv b := by
    apply Fin.ext; simp only [rowOf]; omega

/-- A sum over rows taken tile by tile is the sum over all rows. -/
theorem sum_rows (g : Fin 8192 → EReal) : ∑ t : Fin 32, ∑ r : Fin 256, g (rowOf t r) = ∑ b : Fin 8192, g b := by
  calc ∑ t : Fin 32, ∑ r : Fin 256, g (rowOf t r)
      = ∑ q : Fin 32 × Fin 256, g (rowEquiv q) := (Fintype.sum_prod_type (fun q : Fin 32 × Fin 256 => g (rowEquiv q))).symm
    _ = ∑ b : Fin 8192, g b := Equiv.sum_comp rowEquiv g

/-- The per-seed total: column sums accumulated tile by tile, summed over the seed's columns, against the sum over
    all rows and the seed's columns. -/
theorem seed_total (g : Fin 8192 → Fin 4096 → EReal) (s : Fin 32) :
    ∑ k : Fin 128, ∑ t : Fin 32, ∑ r : Fin 256, g (rowOf t r) (col s k) = ∑ b : Fin 8192, ∑ k : Fin 128, g b (col s k) := by
  calc ∑ k : Fin 128, ∑ t : Fin 32, ∑ r : Fin 256, g (rowOf t r) (col s k)
      = ∑ k : Fin 128, ∑ b : Fin 8192, g b (col s k) := Finset.sum_congr rfl fun k _ => sum_rows fun b => g b (col s k)
    _ = ∑ b : Fin 8192, ∑ k : Fin 128, g b (col s k) := Finset.sum_comm

/-- The multiply-add form of the blend is the case-by-case form, for real entries. -/
theorem blend_eq (act : BitVec 1) (st : BitVec 32) (X A W : EReal) (hX : ∃ r : ℝ, X = (r : EReal)) (hA : ∃ r : ℝ, A = (r : EReal))
    (hW : ∃ r : ℝ, W = (r : EReal)) :
    X * Scalar.select act (Scalar.select (IntOp.cmpi .eq st 0#32) (A * W + (Ideal.ofBits .f32 0x3F800000#32 - A))
          (Scalar.select (IntOp.cmpi .eq st 1#32) W (Ideal.ofBits .f32 0x3F800000#32))) (Ideal.ofBits .f32 0x3F800000#32)
        + Scalar.select act (Scalar.select (IntOp.andi (IntOp.cmpi .ne st 0#32) (IntOp.cmpi .ne st 1#32)) W
            (Ideal.ofBits .f32 0x00000000#32)) (Ideal.ofBits .f32 0x00000000#32)
      = Scalar.select act (Scalar.select (IntOp.cmpi .eq st 0#32) ((A * W) * X + (Ideal.ofBits .f32 0x3F800000#32 - A) * X)
          (Scalar.select (IntOp.cmpi .eq st 1#32) (W * X) (X + W))) X := by
  obtain ⟨x, rfl⟩ := hX; obtain ⟨a, rfl⟩ := hA; obtain ⟨w, rfl⟩ := hW
  rw [Cert.LibTiles.one_f32, Ideal.ofBits_zero_f32]
  unfold Scalar.select
  by_cases hact : act = 1
  · simp only [if_pos hact]
    by_cases h0 : st = 0#32
    · have e0 : IntOp.cmpi .eq st 0#32 = 1 := IntOp.cmpi_eq.mpr h0
      have n0 : ¬IntOp.andi (IntOp.cmpi .ne st 0#32) (IntOp.cmpi .ne st 1#32) = 1 :=
        fun h => IntOp.cmpi_ne.mp (IntOp.andi_eq_one.mp h).1 h0
      simp only [if_pos e0, if_neg n0]
      norm_cast
      ring
    · have hn0 : IntOp.cmpi .ne st 0#32 = 1#1 := IntOp.cmpi_ne.mpr h0
      have e0 : ¬IntOp.cmpi .eq st 0#32 = 1 := fun h => h0 (IntOp.cmpi_eq.mp h)
      simp only [if_neg e0]
      by_cases h1 : st = 1#32
      · have e1 : IntOp.cmpi .eq st 1#32 = 1 := IntOp.cmpi_eq.mpr h1
        have n1 : ¬IntOp.andi (IntOp.cmpi .ne st 0#32) (IntOp.cmpi .ne st 1#32) = 1 :=
          fun h => IntOp.cmpi_ne.mp (IntOp.andi_eq_one.mp h).2 h1
        simp only [if_pos e1, if_neg n1]
        norm_cast
        ring
      · have e1 : ¬IntOp.cmpi .eq st 1#32 = 1 := fun h => h1 (IntOp.cmpi_eq.mp h)
        have n1 : IntOp.andi (IntOp.cmpi .ne st 0#32) (IntOp.cmpi .ne st 1#32) = 1 :=
          IntOp.andi_eq_one.mpr ⟨hn0, IntOp.cmpi_ne.mpr h1⟩
        simp only [if_neg e1, if_pos n1]
        norm_cast
        ring
  · simp only [if_neg hact]
    norm_cast
    ring

end Cert.Spec

end
-- ==== Proof.KernelArrays.lean ====
/-
  The arrays after the grid run, at the extended reals. The output array is, entry by entry, x · m + a with m and a the
  two coefficient rows the host prepared; the two telemetry arrays hold, at column j, the sum over all 8192 rows of
  x(·, j) and of its square: the accumulators add one 256-row tile's column sums per grid point, and the last point
  writes them out.
-/
import proofs.«169301_j22883585753475_2_alg».proof.Proof.KernelChain
import proofs.«169301_j22883585753475_2_alg».proof.Proof.KernelPayloads
import proofs.«169301_j22883585753475_2_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Arrays

open Cert.KernelIdeal Cert.KernelIdeal.Gen Cert.KernelIdeal.Chain Cert.KernelIdeal.Payloads Cert.Spec

variable (m : (ℓ : Loc nD τ sig) → Buf (Elt Ideal) ℓ)

/-- The input matrix x, as a function on its index type. -/
abbrev X (c : Dev nD) : S8192x4096.Idx → Ideal .f32 := m ((c.tc : Thread nD τ).loc main_arg0)
/-- The two coefficient rows the host prepared, as the grid run finds them. -/
abbrev Mrow (c : Dev nD) : S1x4096.Idx → Ideal .f32 := V m c main_v52
abbrev Arow (c : Dev nD) : S1x4096.Idx → Ideal .f32 := V m c main_v55
/-- The block of x that point t reads. -/
abbrev blk0 (c : Dev nD) (t : Fin cfg0.N) : S256x4096.Idx → Ideal .f32 := iblk m c 0 t
/-- The two telemetry rows after the run. -/
abbrev T4 (c : Dev nD) : S1x4096.Idx → Ideal .f32 := (dats m 0 c).arrAt 4 cfg0.N
abbrev T5 (c : Dev nD) : S1x4096.Idx → Ideal .f32 := (dats m 0 c).arrAt 5 cfg0.N

/-- Where each window's block sits at a grid point: the input and output blocks move down the rows with the point,
    the coefficient rows and the telemetry rows stay put. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The input block at point t is rows 256·t … 256·t + 255 of x. -/
theorem iblk0_at (c : Dev nD) (t : Fin cfg0.N) (y : S256x4096.Idx) (k : S8192x4096.Idx)
    (hk0 : (k 0).val = 256 * t.val + (y 0).val) (hk1 : (k 1).val = (y 1).val) :
    (iblk m c 0 t : Vec Ideal S256x4096 .f32) y = X m c k := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * (y 0).val = (k 0).val; rw [e0, hk0]; omega
  | ⟨1, _⟩ => show win0_0.index t 1 * 4096 + 1 * (y 1).val = (k 1).val; rw [e1, hk1]; omega

/-- The first coefficient row's block is the whole row, at every point. -/
theorem iblk1_eq (c : Dev nD) (t : Fin cfg0.N) :
    (iblk m c 1 t : Vec Ideal S1x4096 .f32) = (V m c main_v52 : S1x4096.Idx → Ideal .f32) := by
  obtain ⟨-, -, e0, e1, -⟩ := idx_facts t
  funext y
  unfold iblk
  rw [View.read_apply]
  show V m c main_v52 _ = V m c main_v52 y
  congr 1
  funext a
  apply Fin.ext
  match a with
  | ⟨0, _⟩ => show win0_1.index t 0 * 1 + 1 * (y 0).val = (y 0).val; rw [e0]; omega
  | ⟨1, _⟩ => show win0_1.index t 1 * 4096 + 1 * (y 1).val = (y 1).val; rw [e1]; omega

/-- The second coefficient row's block is the whole row, at every point. -/
theorem iblk2_eq (c : Dev nD) (t : Fin cfg0.N) :
    (iblk m c 2 t : Vec Ideal S1x4096 .f32) = (V m c main_v55 : S1x4096.Idx → Ideal .f32) := by
  obtain ⟨-, -, -, -, e0, e1, -⟩ := idx_facts t
  funext y
  unfold iblk
  rw [View.read_apply]
  show V m c main_v55 _ = V m c main_v55 y
  congr 1
  funext a
  apply Fin.ext
  match a with
  | ⟨0, _⟩ => show win0_2.index t 0 * 1 + 1 * (y 0).val = (y 0).val; rw [e0]; omega
  | ⟨1, _⟩ => show win0_2.index t 1 * 4096 + 1 * (y 1).val = (y 1).val; rw [e1]; omega

/-- The blended array: x · m + a, the coefficient rows read at the entry's column. -/
def OUT (c : Dev nD) : S8192x4096.Idx → Ideal .f32 := fun i =>
  X m c i * Mrow m c (ix2 (0 : Fin 1) (i 1)) + Arow m c (ix2 (0 : Fin 1) (i 1))

/-- The stored block at an entry, over any coefficient-row index with the entry's column. -/
theorem pay3_at (x0 : Vec Ideal S256x4096 .f32) (x1 x2 : Vec Ideal S1x4096 .f32) (y : S256x4096.Idx) (z : S1x4096.Idx)
    (hz0 : (z 0).val = 0) (hz1 : (z 1).val = (y 1).val) :
    k0_pay3 x0 x1 x2 y = x0 y * x1 z + x2 z := by
  obtain ⟨r, q, rfl⟩ : ∃ (r : Fin 256) (q : Fin 4096), y = ix2 r q := ⟨y 0, y 1, eq_ix2 y⟩
  have ez : z = ix2 (0 : Fin 1) q := by
    funext a; apply Fin.ext
    match a with
    | ⟨0, _⟩ => exact hz0
    | ⟨1, _⟩ => exact hz1
  rw [ez]
  exact pay3_apply x0 x1 x2 r q

/-- What point t writes back into the output array is block t of the blended array. -/
theorem flushed3_eq (c : Dev nD) (t : Fin cfg0.N) :
    (dats m 0 c).flushed 3 t = ((cfg0.win 3).blk t).view.read (Elt Ideal) (OUT m c) := by
  obtain ⟨-, -, -, -, -, -, e0, e1, -⟩ := idx_facts t
  show (cfg0.win 3).cut (grid0.coords t) ((dats m 0 c).after 3 t) = _
  rw [after0_3, out3_eq]
  funext j
  show k0_pay3 (iblk m c 0 t) (iblk m c 1 t) (iblk m c 2 t) j = OUT m c (((cfg0.win 3).blk t).view.emb j)
  have hj0 : (j 0).val < 256 := (j 0).isLt
  have hj1 : (j 1).val < 4096 := (j 1).isLt
  have k0 : ((((cfg0.win 3).blk t).view.emb j) 0).val = 256 * t.val + (j 0).val := by
    show win0_3.index t 0 * 256 + 1 * (j 0).val = _; rw [e0]; omega
  have k1 : ((((cfg0.win 3).blk t).view.emb j) 1).val = (j 1).val := by
    show win0_3.index t 1 * 4096 + 1 * (j 1).val = _; rw [e1]; omega
  refine (pay3_at (iblk m c 0 t) (iblk m c 1 t) (iblk m c 2 t) j (ix2 (0 : Fin 1) ((((cfg0.win 3).blk t).view.emb j) 1)) rfl k1).trans ?_
  rw [iblk0_at m c t j (((cfg0.win 3).blk t).view.emb j) k0 k1, iblk1_eq, iblk2_eq]
  rfl

/-- An index of the output array is in point t's block iff its row is among the block's 256 rows. -/
theorem mem_blk3 (t : Fin cfg0.N) (i : S8192x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v56_0).slice (win0_3.rect t)).set ↔ _
  rw [View.set_slice_whole, Rect.mem_set_unit]
  exact Iff.rfl

/-- The output array after the run is the blended array: the 32 blocks of 256 rows tile it. -/
theorem final3 (c : Dev nD) : (dats m 0 c).arrAt 3 cfg0.N = OUT m c :=
  (dats m 0 c).arrAt_eq_of_cover 3 (OUT m c) (fun t _ => flushed3_eq m c t) fun i => by
    have hN : cfg0.N = 32 := N_0
    have hi0 : (i 0).val < 8192 := (i 0).isLt
    have hi1 : (i 1).val < 4096 := (i 1).isLt
    refine ⟨⟨(i 0).val / 256, by rw [hN]; omega⟩, flush0_3 _, ?_⟩
    rw [mem_blk3]
    obtain ⟨-, -, -, -, -, -, e0, e1, -⟩ := idx_facts ⟨(i 0).val / 256, by rw [hN]; omega⟩
    intro a
    match a with
    | ⟨0, _⟩ => show win0_3.index _ 0 * 256 ≤ (i 0).val ∧ (i 0).val < win0_3.index _ 0 * 256 + 256; rw [e0]; dsimp only; omega
    | ⟨1, _⟩ => show win0_3.index _ 1 * 4096 ≤ (i 1).val ∧ (i 1).val < win0_3.index _ 1 * 4096 + 4096; rw [e1]; omega

/-- The last grid point. -/
def tLast : Fin cfg0.N := ⟨31, by rw [show cfg0.N = 32 from N_0]; omega⟩

/-- What the one write-back of the sums' row writes is the sum accumulator after the last point. -/
theorem flushed4_eq (c : Dev nD) (t : Fin cfg0.N) (hf : (cfg0.win 4).flush t = true) :
    (dats m 0 c).flushed 4 t = ((cfg0.win 4).blk t).view.read (Elt Ideal) (acc0 m c tLast.val tLast.isLt) := by
  have hN : cfg0.N = 32 := N_0
  have ht : t.val % 32 = 31 := (flush0_4 t).mp hf
  obtain rfl : t = tLast := Fin.ext (by have := t.isLt; show t.val = 31; omega)
  obtain ⟨-, -, -, -, -, -, -, -, e0, e1, -⟩ := idx_facts tLast
  show (cfg0.win 4).cut (grid0.coords tLast) ((dats m 0 c).after 4 tLast) = _
  rw [after0_4, (out45_eq m c tLast ht).1]
  funext j
  show acc0 m c tLast.val tLast.isLt j = acc0 m c tLast.val tLast.isLt (((cfg0.win 4).blk tLast).view.emb j)
  congr 1
  funext a
  apply Fin.ext
  match a with
  | ⟨0, _⟩ => show (j 0).val = win0_4.index tLast 0 * 1 + 1 * (j 0).val; rw [e0]; omega
  | ⟨1, _⟩ => show (j 1).val = win0_4.index tLast 1 * 4096 + 1 * (j 1).val; rw [e1]; omega

/-- Likewise for the row of sums of squares. -/
theorem flushed5_eq (c : Dev nD) (t : Fin cfg0.N) (hf : (cfg0.win 5).flush t = true) :
    (dats m 0 c).flushed 5 t = ((cfg0.win 5).blk t).view.read (Elt Ideal) (acc1 m c tLast.val tLast.isLt) := by
  have hN : cfg0.N = 32 := N_0
  have ht : t.val % 32 = 31 := (flush0_5 t).mp hf
  obtain rfl : t = tLast := Fin.ext (by have := t.isLt; show t.val = 31; omega)
  obtain ⟨-, -, -, -, -, -, -, -, -, -, e0, e1⟩ := idx_facts tLast
  show (cfg0.win 5).cut (grid0.coords tLast) ((dats m 0 c).after 5 tLast) = _
  rw [after0_5, (out45_eq m c tLast ht).2]
  funext j
  show acc1 m c tLast.val tLast.isLt j = acc1 m c tLast.val tLast.isLt (((cfg0.win 5).blk tLast).view.emb j)
  congr 1
  funext a
  apply Fin.ext
  match a with
  | ⟨0, _⟩ => show (j 0).val = win0_5.index tLast 0 * 1 + 1 * (j 0).val; rw [e0]; omega
  | ⟨1, _⟩ => show (j 1).val = win0_5.index tLast 1 * 4096 + 1 * (j 1).val; rw [e1]; omega

/-- The last point's block of a telemetry row is the whole row. -/
theorem mem_blk4 (i : S1x4096.Idx) : i ∈ ((cfg0.win 4).blk tLast).view.set := by
  obtain ⟨-, -, -, -, -, -, -, -, e0, e1, -⟩ := idx_facts tLast
  show i ∈ ((View.whole main_v56_1).slice (win0_4.rect tLast)).set
  rw [View.set_slice_whole, Rect.mem_set_unit]
  have hi0 : (i 0).val < 1 := (i 0).isLt
  have hi1 : (i 1).val < 4096 := (i 1).isLt
  intro a
  match a with
  | ⟨0, _⟩ => show win0_4.index tLast 0 * 1 ≤ (i 0).val ∧ (i 0).val < win0_4.index tLast 0 * 1 + 1; rw [e0]; omega
  | ⟨1, _⟩ => show win0_4.index tLast 1 * 4096 ≤ (i 1).val ∧ (i 1).val < win0_4.index tLast 1 * 4096 + 4096; rw [e1]; omega

theorem mem_blk5 (i : S1x4096.Idx) : i ∈ ((cfg0.win 5).blk tLast).view.set := by
  obtain ⟨-, -, -, -, -, -, -, -, -, -, e0, e1⟩ := idx_facts tLast
  show i ∈ ((View.whole main_v56_2).slice (win0_5.rect tLast)).set
  rw [View.set_slice_whole, Rect.mem_set_unit]
  have hi0 : (i 0).val < 1 := (i 0).isLt
  have hi1 : (i 1).val < 4096 := (i 1).isLt
  intro a
  match a with
  | ⟨0, _⟩ => show win0_5.index tLast 0 * 1 ≤ (i 0).val ∧ (i 0).val < win0_5.index tLast 0 * 1 + 1; rw [e0]; omega
  | ⟨1, _⟩ => show win0_5.index tLast 1 * 4096 ≤ (i 1).val ∧ (i 1).val < win0_5.index tLast 1 * 4096 + 4096; rw [e1]; omega

/-- The sums' row after the run is the sum accumulator after the last point. -/
theorem final4 (c : Dev nD) : (dats m 0 c).arrAt 4 cfg0.N = acc0 m c tLast.val tLast.isLt :=
  (dats m 0 c).arrAt_eq_of_cover 4 (acc0 m c tLast.val tLast.isLt) (flushed4_eq m c) fun i =>
    ⟨tLast, (flush0_4 tLast).mpr rfl, mem_blk4 i⟩

/-- The squares' row after the run is the accumulator of squares after the last point. -/
theorem final5 (c : Dev nD) : (dats m 0 c).arrAt 5 cfg0.N = acc1 m c tLast.val tLast.isLt :=
  (dats m 0 c).arrAt_eq_of_cover 5 (acc1 m c tLast.val tLast.isLt) (flushed5_eq m c) fun i =>
    ⟨tLast, (flush0_5 tLast).mpr rfl, mem_blk5 i⟩

/-- The column sums of the tile of rows that point t reads (zero beyond the grid). -/
def tileSum (c : Dev nD) (t : ℕ) (j : Fin 4096) : EReal :=
  if h : t < cfg0.N then ∑ r : Fin 256, blk0 m c ⟨t, h⟩ (ix2 r j) else 0

/-- Likewise for the squares. -/
def tileSumSq (c : Dev nD) (t : ℕ) (j : Fin 4096) : EReal :=
  if h : t < cfg0.N then ∑ r : Fin 256, blk0 m c ⟨t, h⟩ (ix2 r j) * blk0 m c ⟨t, h⟩ (ix2 r j) else 0

/-- After point n the sum accumulator holds, at column j, the tiles' column sums up to n. -/
theorem acc0_apply (c : Dev nD) (j : Fin 4096) : ∀ (n : ℕ) (h : n < cfg0.N),
    acc0 m c n h (ix2 (0 : Fin 1) j) = ∑ t ∈ Finset.range (n + 1), tileSum m c t j
  | 0, h => by
    rw [Finset.sum_range_one]
    show k0_pay4 (iblk m c 0 ⟨0, h⟩) (k0_pay1 (F := Ideal)) (ix2 (0 : Fin 1) j) = _
    rw [pay4_apply (iblk m c 0 ⟨0, h⟩) (k0_pay1 (F := Ideal)) j, pay1_apply, zero_add]
    unfold tileSum
    rw [dif_pos h]
  | n + 1, h => by
    rw [Finset.sum_range_succ, ← acc0_apply c j n (Nat.lt_of_succ_lt h)]
    show k0_pay4 (iblk m c 0 ⟨n + 1, h⟩) (acc0 m c n (Nat.lt_of_succ_lt h)) (ix2 (0 : Fin 1) j) = _
    rw [pay4_apply (iblk m c 0 ⟨n + 1, h⟩) (acc0 m c n (Nat.lt_of_succ_lt h)) j]
    unfold tileSum
    rw [dif_pos h]

/-- Likewise for the squares. -/
theorem acc1_apply (c : Dev nD) (j : Fin 4096) : ∀ (n : ℕ) (h : n < cfg0.N),
    acc1 m c n h (ix2 (0 : Fin 1) j) = ∑ t ∈ Finset.range (n + 1), tileSumSq m c t j
  | 0, h => by
    rw [Finset.sum_range_one]
    show k0_pay5 (iblk m c 0 ⟨0, h⟩) (k0_pay2 (F := Ideal)) (ix2 (0 : Fin 1) j) = _
    rw [pay5_apply (iblk m c 0 ⟨0, h⟩) (k0_pay2 (F := Ideal)) j, pay2_apply, zero_add]
    unfold tileSumSq
    rw [dif_pos h]
  | n + 1, h => by
    rw [Finset.sum_range_succ, ← acc1_apply c j n (Nat.lt_of_succ_lt h)]
    show k0_pay5 (iblk m c 0 ⟨n + 1, h⟩) (acc1 m c n (Nat.lt_of_succ_lt h)) (ix2 (0 : Fin 1) j) = _
    rw [pay5_apply (iblk m c 0 ⟨n + 1, h⟩) (acc1 m c n (Nat.lt_of_succ_lt h)) j]
    unfold tileSumSq
    rw [dif_pos h]

/-- A tile's column sum in terms of x: rows 256·t … 256·t + 255. -/
theorem tileSum_eq (c : Dev nD) (t : Fin 32) (j : Fin 4096) :
    tileSum m c t.val j = ∑ r : Fin 256, X m c (ix2 (rowOf t r) j) := by
  have hN : cfg0.N = 32 := N_0
  unfold tileSum
  rw [dif_pos (by rw [hN]; exact t.isLt)]
  exact Finset.sum_congr rfl fun r _ => iblk0_at m c ⟨t.val, by rw [hN]; exact t.isLt⟩ (ix2 r j) (ix2 (rowOf t r) j) rfl rfl

theorem tileSumSq_eq (c : Dev nD) (t : Fin 32) (j : Fin 4096) :
    tileSumSq m c t.val j = ∑ r : Fin 256, X m c (ix2 (rowOf t r) j)
      * X m c (ix2 (rowOf t r) j) := by
  have hN : cfg0.N = 32 := N_0
  unfold tileSumSq
  rw [dif_pos (by rw [hN]; exact t.isLt)]
  exact Finset.sum_congr rfl fun r _ => by
    have e : blk0 m c ⟨t.val, by rw [hN]; exact t.isLt⟩ (ix2 r j) = X m c (ix2 (rowOf t r) j) :=
      iblk0_at m c ⟨t.val, by rw [hN]; exact t.isLt⟩ (ix2 r j) (ix2 (rowOf t r) j) rfl rfl
    rw [e]

/-- The sums' row after the run, at column j: the sum over the 32 tiles of the tile's column sum of x. -/
theorem final4_apply (c : Dev nD) (j : Fin 4096) :
    T4 m c (ix2 (0 : Fin 1) j)
      = ∑ t : Fin 32, ∑ r : Fin 256, X m c (ix2 (rowOf t r) j) := by
  show ((dats m 0 c).arrAt 4 cfg0.N : S1x4096.Idx → Ideal .f32) (ix2 (0 : Fin 1) j) = _
  rw [final4]
  refine (acc0_apply m c j tLast.val tLast.isLt).trans ?_
  show ∑ t ∈ Finset.range 32, tileSum m c t j = _
  rw [Finset.sum_range]
  exact Finset.sum_congr rfl fun t _ => tileSum_eq m c t j

/-- The squares' row after the run, at column j. -/
theorem final5_apply (c : Dev nD) (j : Fin 4096) :
    T5 m c (ix2 (0 : Fin 1) j)
      = ∑ t : Fin 32, ∑ r : Fin 256, X m c (ix2 (rowOf t r) j)
          * X m c (ix2 (rowOf t r) j) := by
  show ((dats m 0 c).arrAt 5 cfg0.N : S1x4096.Idx → Ideal .f32) (ix2 (0 : Fin 1) j) = _
  rw [final5]
  refine (acc1_apply m c j tLast.val tLast.isLt).trans ?_
  show ∑ t ∈ Finset.range 32, tileSumSq m c t j = _
  rw [Finset.sum_range]
  exact Finset.sum_congr rfl fun t _ => tileSumSq_eq m c t j

end Cert.KernelIdeal.Arrays

end
-- ==== Proof.HostPrefix.lean ====
/-
  The two coefficient vectors the host prepares before the kernel is launched.

  There are S = 32 seeds and C = 128 columns per seed; column h = 128·s + c of a length-4096 vector belongs to seed s.
  From the integer inputs (lifecycle state x1, blueprint id x2, grafting strategy x3), the blend factor x4 and the
  weight table x5 the host computes a gathered weight w[s, c] (one table entry per seed and column, kept here as one
  opaque function `wK` of x2 and x5) and then, per column,

    m[h] = if active[s] then (if strat[s] = 0 then alpha[s]·w[s,c] + (1 − alpha[s])
                              else if strat[s] = 1 then w[s,c] else 1) else 1
    a[h] = if active[s] then (if strat[s] ≠ 0 and strat[s] ≠ 1 then w[s,c] else 0) else 0

  with active[s] = (3 ≤ x1[s]) and (x1[s] ≤ 6), strat = x3, alpha = x4. Both are stored as [1, 4096] arrays.

  This module names the two arrays as closed terms of the inputs (`mTerm`, `aTerm`), shows that they are what the
  launched region finds in the two buffers it reads them from (`V_m`, `V_a`), and reads them at column 128·s + k
  (`mTerm_apply`, `aTerm_apply`): there every reshape and broadcast disappears, a seed-indexed input is read at s and
  the gathered weight at (s, k).
-/
import proofs.«169301_j22883585753475_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

noncomputable section

namespace Cert.HostPrefix

open Idealize.ShloMosaic Idealize.ShloMosaic.ValueIdx Idealize.ShloMosaic.TcCoe Cert.KernelIdeal Cert.KernelIdeal.Gen
open Idealize.ShloMosaic.StableHlo (after_cons after_nil)

variable {F : FTy → Type} [FloatOps F]

/-! ## The arrays as closed terms of the inputs -/

/-- The gathered weight, one entry per seed and column: the flattened weight table read at the start index
    `x2[s]·4096 + s·128 + c` (wrapped by 40960 when negative), exactly as the host operations build it. -/
def wK (x2 : S32.Idx → BitVec 32) (x5 : S10x4096.Idx → F .f32) : S32x128.Idx → F .f32 :=
  Host.gather gather_S40960_S32x128x1_S32x128_n_0_n_n_0_2_1
    (shapeCast S40960 x5 shapeCasts_S10x4096_S40960)
    (broadcastInDim S32x128x1 ![0, 1] bcast_S32x128_S32x128x1_0_1
      (select
        (cmpi .slt (addi (broadcastInDim S32x128 ![0, 1] bcast_S32x1_S32x128_0_1 (broadcastInDim S32x1 ![0] bcast_S32_S32x1_0 (addi (muli x2 (broadcastInDim S32 ![] bcast_S_S32 (constantI S_ 32 4096#32))) (muli (iotaInDim S32 32 0) (broadcastInDim S32 ![] bcast_S_S32 (constantI S_ 32 128#32)))))) (broadcastInDim S32x128 ![0, 1] bcast_S1x128_S32x128_0_1 (broadcastInDim S1x128 ![1] bcast_S128_S1x128_1 (iotaInDim S128 32 0)))) (broadcastInDim S32x128 ![] bcast_S_S32x128 (constantI S_ 32 0#32)))
        (addi (addi (broadcastInDim S32x128 ![0, 1] bcast_S32x1_S32x128_0_1 (broadcastInDim S32x1 ![0] bcast_S32_S32x1_0 (addi (muli x2 (broadcastInDim S32 ![] bcast_S_S32 (constantI S_ 32 4096#32))) (muli (iotaInDim S32 32 0) (broadcastInDim S32 ![] bcast_S_S32 (constantI S_ 32 128#32)))))) (broadcastInDim S32x128 ![0, 1] bcast_S1x128_S32x128_0_1 (broadcastInDim S1x128 ![1] bcast_S128_S1x128_1 (iotaInDim S128 32 0)))) (broadcastInDim S32x128 ![] bcast_S_S32x128 (constantI S_ 32 40960#32)))
        (addi (broadcastInDim S32x128 ![0, 1] bcast_S32x1_S32x128_0_1 (broadcastInDim S32x1 ![0] bcast_S32_S32x1_0 (addi (muli x2 (broadcastInDim S32 ![] bcast_S_S32 (constantI S_ 32 4096#32))) (muli (iotaInDim S32 32 0) (broadcastInDim S32 ![] bcast_S_S32 (constantI S_ 32 128#32)))))) (broadcastInDim S32x128 ![0, 1] bcast_S1x128_S32x128_0_1 (broadcastInDim S1x128 ![1] bcast_S128_S1x128_1 (iotaInDim S128 32 0))))))

/-- The multiplier vector: per column the blend coefficient its seed's state, strategy and blend factor select. -/
def mTerm (x1 x2 x3 : S32.Idx → BitVec 32) (x4 : S32.Idx → F .f32) (x5 : S10x4096.Idx → F .f32) : S1x4096.Idx → F .f32 :=
  shapeCast S1x4096
    (select (shapeCast S4096 (broadcastInDim S32x128 ![0] bcast_S32_S32x128_0 (andi (cmpi .sge x1 (broadcastInDim S32 ![] bcast_S_S32 (constantI S_ 32 3#32))) (cmpi .sle x1 (broadcastInDim S32 ![] bcast_S_S32 (constantI S_ 32 6#32))))) shapeCasts_S32x128_S4096)
      (select (cmpi .eq (shapeCast S4096 (broadcastInDim S32x128 ![0] bcast_S32_S32x128_0 x3) shapeCasts_S32x128_S4096) (broadcastInDim S4096 ![] bcast_S_S4096 (constantI S_ 32 0#32)))
        (addf (mulf (shapeCast S4096 (broadcastInDim S32x128 ![0] bcast_S32_S32x128_0 x4) shapeCasts_S32x128_S4096) (shapeCast S4096 (wK x2 x5) shapeCasts_S32x128_S4096)) (subf (broadcastInDim S4096 ![] bcast_S_S4096 (constant S_ .f32 0x3F800000#32)) (shapeCast S4096 (broadcastInDim S32x128 ![0] bcast_S32_S32x128_0 x4) shapeCasts_S32x128_S4096)))
        (select (cmpi .eq (shapeCast S4096 (broadcastInDim S32x128 ![0] bcast_S32_S32x128_0 x3) shapeCasts_S32x128_S4096) (broadcastInDim S4096 ![] bcast_S_S4096 (constantI S_ 32 1#32))) (shapeCast S4096 (wK x2 x5) shapeCasts_S32x128_S4096) (broadcastInDim S4096 ![] bcast_S_S4096 (constant S_ .f32 0x3F800000#32))))
      (broadcastInDim S4096 ![] bcast_S_S4096 (constant S_ .f32 0x3F800000#32)))
    shapeCasts_S4096_S1x4096

/-- The offset vector: per column the gathered weight when its seed is active with a strategy other than 0 and 1,
    else zero. -/
def aTerm (x1 x2 x3 : S32.Idx → BitVec 32) (x4 : S32.Idx → F .f32) (x5 : S10x4096.Idx → F .f32) : S1x4096.Idx → F .f32 :=
  shapeCast S1x4096
    (select (shapeCast S4096 (broadcastInDim S32x128 ![0] bcast_S32_S32x128_0 (andi (cmpi .sge x1 (broadcastInDim S32 ![] bcast_S_S32 (constantI S_ 32 3#32))) (cmpi .sle x1 (broadcastInDim S32 ![] bcast_S_S32 (constantI S_ 32 6#32))))) shapeCasts_S32x128_S4096)
      (select (andi (cmpi .ne (shapeCast S4096 (broadcastInDim S32x128 ![0] bcast_S32_S32x128_0 x3) shapeCasts_S32x128_S4096) (broadcastInDim S4096 ![] bcast_S_S4096 (constantI S_ 32 0#32))) (cmpi .ne (shapeCast S4096 (broadcastInDim S32x128 ![0] bcast_S32_S32x128_0 x3) shapeCasts_S32x128_S4096) (broadcastInDim S4096 ![] bcast_S_S4096 (constantI S_ 32 1#32)))) (shapeCast S4096 (wK x2 x5) shapeCasts_S32x128_S4096) (broadcastInDim S4096 ![] bcast_S_S4096 (constant S_ .f32 0x00000000#32)))
      (broadcastInDim S4096 ![] bcast_S_S4096 (constant S_ .f32 0x00000000#32)))
    shapeCasts_S4096_S1x4096

/-! ## What the region finds in its two coefficient buffers -/

section Found
variable (m : (ℓ : Loc nD τ sig) → Buf (Elt F) ℓ) (c : Dev nD)

/-- The buffer the region reads the multipliers from holds `mTerm` of the launch contents of the five inputs. -/
theorem V_m : (V m c main_v52 : S1x4096.Idx → F .f32) = mTerm (m ((c : Thread nD τ).loc main_arg1)) (m ((c : Thread nD τ).loc main_arg2)) (m ((c : Thread nD τ).loc main_arg3)) (m ((c : Thread nD τ).loc main_arg4)) (m ((c : Thread nD τ).loc main_arg5)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results_simp
  rfl

/-- The buffer the region reads the offsets from holds `aTerm` of the launch contents of the five inputs. -/
theorem V_a : (V m c main_v55 : S1x4096.Idx → F .f32) = aTerm (m ((c : Thread nD τ).loc main_arg1)) (m ((c : Thread nD τ).loc main_arg2)) (m ((c : Thread nD τ).loc main_arg3)) (m ((c : Thread nD τ).loc main_arg4)) (m ((c : Thread nD τ).loc main_arg5)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, List.flatten_cons, List.flatten_nil, List.append_nil, List.cons_append, List.nil_append]
  after_results_simp
  rfl

end Found

/-! ## Reshapes and broadcasts read at a column

In the three broadcast lemmas the axis map (`![0]`, `![]`) is kept out of the lemma's index (`no_index`) and matched by
unification: its element type is spelt `Fin t.rank` in one place and `Fin 2` in another. -/

/-- Column `128·s + k` of a length-4096 vector: seed `s`, position `k` within the seed. -/
def col (s : Fin 32) (k : Fin 128) : Fin 4096 := ⟨128 * s.val + k.val, by omega⟩

/-- Its value. -/
theorem col_val (s : Fin 32) (k : Fin 128) : (col s k).val = 128 * s.val + k.val := rfl

/-- Every column is column `k` of some seed `s`: `s` the quotient and `k` the remainder by 128. -/
theorem exists_col (n : Fin 4096) : ∃ (s : Fin 32) (k : Fin 128), n = col s k :=
  ⟨⟨n.val / 128, by omega⟩, ⟨n.val % 128, Nat.mod_lt _ (by decide)⟩, Fin.ext (by
    show n.val = 128 * (n.val / 128) + n.val % 128
    omega)⟩

section Layout
variable {α : Type}

/-- A 32 × 128 array flattened row by row reads, at position `128·s + k`, its entry `(s, k)`. -/
theorem shapeCast_flat_apply (v : S32x128.Idx → α) (h : S32x128.ShapeCasts S4096) (s : Fin 32) (k : Fin 128) :
    shapeCast S4096 v h (ix1 (col s k)) = v (ix2 s k) :=
  shapeCast_apply v h (ix1 (col s k)) (ix2 s k) (by
    rw [Shape.rowMajor_val_two, Shape.rowMajor_val_one]
    show s.val * 128 + k.val = 128 * s.val + k.val
    omega)

/-- A per-seed vector repeated along the columns reads, at `(s, k)`, its entry `s`. -/
theorem broadcast_seed_apply (x : S32.Idx → α) (h : S32.BroadcastsInDim S32x128 (![0] : Fin 1 → Fin S32x128.rank))
    (s : Fin 32) (k : Fin 128) : broadcastInDim S32x128 (no_index ![0]) h x (ix2 s k) = x (ix1 s) :=
  broadcastInDim_apply _ h x (ix2 s k) (ix1 s) (fun a => match a with
    | ⟨0, _⟩ => by show s.val = if (32 : Nat) = 1 then 0 else s.val; rw [if_neg (by decide)])

/-- A scalar spread over a length-4096 vector reads the scalar everywhere. -/
theorem broadcast_scalar4096_apply (x : S_.Idx → α) (h : S_.BroadcastsInDim S4096 (![] : Fin 0 → Fin S4096.rank))
    (j : S4096.Idx) : broadcastInDim S4096 (no_index ![]) h x j = x ix0 :=
  broadcastInDim_apply _ h x j ix0 (fun a => a.elim0)

/-- A scalar spread over a length-32 vector reads the scalar everywhere. -/
theorem broadcast_scalar32_apply (x : S_.Idx → α) (h : S_.BroadcastsInDim S32 (![] : Fin 0 → Fin S32.rank))
    (j : S32.Idx) : broadcastInDim S32 (no_index ![]) h x j = x ix0 :=
  broadcastInDim_apply _ h x j ix0 (fun a => a.elim0)

end Layout

/-- An integer comparison of two vectors at an index compares the entries. -/
theorem cmpi_apply {s : Shape} {w : Nat} (p : CmpIPredicate) (x y : IVec s w) (i : s.Idx) :
    cmpi p x y i = IntOp.cmpi p (x i) (y i) := rfl
/-- A bitwise "and" of two vectors at an index is the "and" of the entries. -/
theorem andi_apply {s : Shape} {w : Nat} (x y : IVec s w) (i : s.Idx) : andi x y i = IntOp.andi (x i) (y i) := rfl

/-! ## The two vectors at column `128·s + k` -/

/-- The multiplier at column `128·s + k`: seed `s`'s state decides "active", its strategy picks the blend
    `alpha·w + (1 − alpha)`, the weight itself, or one; an inactive seed gets one. -/
theorem mTerm_apply (x1 x2 x3 : S32.Idx → BitVec 32) (x4 : S32.Idx → Ideal .f32) (x5 : S10x4096.Idx → Ideal .f32)
    (u : Fin 1) (s : Fin 32) (k : Fin 128) :
    mTerm (F := Ideal) x1 x2 x3 x4 x5 (ix2 u (col s k))
      = Scalar.select (IntOp.andi (IntOp.cmpi .sge (x1 (ix1 s)) 3#32) (IntOp.cmpi .sle (x1 (ix1 s)) 6#32))
          (Scalar.select (IntOp.cmpi .eq (x3 (ix1 s)) 0#32)
            (x4 (ix1 s) * wK (F := Ideal) x2 x5 (ix2 s k) + (Ideal.ofBits .f32 0x3F800000#32 - x4 (ix1 s)))
            (Scalar.select (IntOp.cmpi .eq (x3 (ix1 s)) 1#32) (wK (F := Ideal) x2 x5 (ix2 s k)) (Ideal.ofBits .f32 0x3F800000#32)))
          (Ideal.ofBits .f32 0x3F800000#32) := by
  unfold mTerm
  rw [shapeCast_a_1a_apply]
  simp only [select_apply, cmpi_apply, andi_apply, mulf_apply, addf_apply, subf_apply, shapeCast_flat_apply,
    broadcast_seed_apply, broadcast_scalar4096_apply, broadcast_scalar32_apply, constant_apply,
    constantI_apply]

/-- The offset at column `128·s + k`: the gathered weight when seed `s` is active with a strategy other than 0 and 1,
    else zero. -/
theorem aTerm_apply (x1 x2 x3 : S32.Idx → BitVec 32) (x4 : S32.Idx → Ideal .f32) (x5 : S10x4096.Idx → Ideal .f32)
    (u : Fin 1) (s : Fin 32) (k : Fin 128) :
    aTerm (F := Ideal) x1 x2 x3 x4 x5 (ix2 u (col s k))
      = Scalar.select (IntOp.andi (IntOp.cmpi .sge (x1 (ix1 s)) 3#32) (IntOp.cmpi .sle (x1 (ix1 s)) 6#32))
          (Scalar.select (IntOp.andi (IntOp.cmpi .ne (x3 (ix1 s)) 0#32) (IntOp.cmpi .ne (x3 (ix1 s)) 1#32))
            (wK (F := Ideal) x2 x5 (ix2 s k)) (Ideal.ofBits .f32 0x00000000#32))
          (Ideal.ofBits .f32 0x00000000#32) := by
  unfold aTerm
  rw [shapeCast_a_1a_apply]
  simp only [select_apply, cmpi_apply, andi_apply, shapeCast_flat_apply,
    broadcast_seed_apply, broadcast_scalar4096_apply, broadcast_scalar32_apply, constant_apply,
    constantI_apply]

end Cert.HostPrefix

end
-- ==== Proof.HostTail.lean ====
/-
  The host operations after the kernel's one region, read off the frame run's post.

  After the region the program reshapes each of the two [1,4096] result rows to [32,128] and
  sums it along the second axis from the constant 0, giving per-group sums of length 32, and
  broadcasts the constant word 0x49800000 to length 32. The big [8192,4096] result is not
  touched by these operations. Each statement below takes as a hypothesis what the region
  leaves in the corresponding result array and says what the program's result buffer holds
  at the end, as the same operations applied to that array.

  At the extended reals the group sum at group s is the zero constant plus the sum over
  k < 128 of the row's entry at column 128·s + k: a reshape keeps the row-major position,
  and position (s, k) of [32,128] is position (0, 128·s + k) of [1,4096].
-/
import proofs.«169301_j22883585753475_2_alg».proof.Proof.Gen.KernelIdeal.Frame
import Idealize.ShloMosaic.Lib.ValueIdx
import Idealize.ShloMosaic.Lib.Pipeline.Value
import Idealize.ShloMosaic.Lib.StableHlo.Run
import Idealize.ShloMosaic.Lib.Tactic
import Idealize.ShloMosaic.PureOps.Ideal.Laws

noncomputable section

namespace Cert.HostTail

open Idealize.ShloMosaic Idealize.ShloMosaic.ValueIdx Idealize.ShloMosaic.TcCoe Cert.KernelIdeal Cert.KernelIdeal.Gen
open Idealize.ShloMosaic.StableHlo
open scoped BigOperators

section Generic

variable {F : FTy → Type} [FloatOps F]
variable (m : (ℓ : Loc nD τ sig) → Buf (Elt F) ℓ) (c : Dev nD)

/-- The [8192,4096] result: no operation after the region writes it, so it ends at what the region left. -/
theorem tail_out (T3 : S8192x4096.Idx → F .f32) (h3 : (dats m 0 c).arrAt 3 cfg0.N = T3) :
    Pipeline.afterTail₀ cfgs (dats m) 0 (V0 m) [hostOps1] c main_v56_0 = T3 := by
  unfold Pipeline.afterTail₀
  show StableHlo.after hostOps1 _ (Proc.devRef .tc main_v56_0) = _
  after_results
  exact (Pipeline.withArrays_arr spec0 launch0.win.arr_inj c _ _ 3).trans h3

/-- The first [32] result: the first result row, reshaped to [32,128] and summed along the second axis from 0. -/
theorem tail_sum (T4 : S1x4096.Idx → F .f32) (h4 : (dats m 0 c).arrAt 4 cfg0.N = T4) :
    Pipeline.afterTail₀ cfgs (dats m) 0 (V0 m) [hostOps1] c main_v58
      = Host.reduceAdd (shapeCast S32x128 T4 shapeCasts_S1x4096_S32x128) (constant S_ .f32 0x00000000#32)
          reducesTo_S32x128_S32_d1 h_S_ := by
  unfold Pipeline.afterTail₀
  show StableHlo.after hostOps1 _ (Proc.devRef .tc main_v58) = _
  after_results
  exact congrArg (fun T : S1x4096.Idx → F .f32 =>
      Host.reduceAdd (shapeCast S32x128 T shapeCasts_S1x4096_S32x128) (constant S_ .f32 0x00000000#32)
        reducesTo_S32x128_S32_d1 h_S_)
    ((Pipeline.withArrays_arr spec0 launch0.win.arr_inj c _ _ 4).trans h4)

/-- The second [32] result: the same of the second result row. -/
theorem tail_sumsq (T5 : S1x4096.Idx → F .f32) (h5 : (dats m 0 c).arrAt 5 cfg0.N = T5) :
    Pipeline.afterTail₀ cfgs (dats m) 0 (V0 m) [hostOps1] c main_v60
      = Host.reduceAdd (shapeCast S32x128 T5 shapeCasts_S1x4096_S32x128) (constant S_ .f32 0x00000000#32)
          reducesTo_S32x128_S32_d1 h_S_ := by
  unfold Pipeline.afterTail₀
  show StableHlo.after hostOps1 _ (Proc.devRef .tc main_v60) = _
  after_results
  exact congrArg (fun T : S1x4096.Idx → F .f32 =>
      Host.reduceAdd (shapeCast S32x128 T shapeCasts_S1x4096_S32x128) (constant S_ .f32 0x00000000#32)
        reducesTo_S32x128_S32_d1 h_S_)
    ((Pipeline.withArrays_arr spec0 launch0.win.arr_inj c _ _ 5).trans h5)

/-- The third [32] result: the constant word 0x49800000 at every index. -/
theorem tail_count :
    Pipeline.afterTail₀ cfgs (dats m) 0 (V0 m) [hostOps1] c main_v61
      = broadcastInDim S32 ![] bcast_S_S32 (constant (F := F) S_ .f32 0x49800000#32) := by
  unfold Pipeline.afterTail₀
  show StableHlo.after hostOps1 _ (Proc.devRef .tc main_v61) = _
  after_results

end Generic

/-- Column 128·s + k of a row of length 4096: entry k of group s. -/
def col (s : Fin 32) (k : Fin 128) : Fin 4096 := ⟨128 * s.val + k.val, by omega⟩

/-- At the extended reals the group sum at s is 0 plus the sum over the 128 columns of group s. -/
theorem rowsum_apply (T : S1x4096.Idx → Ideal .f32) (s : Fin 32) :
    Host.reduceAdd (F := Ideal) (shapeCast S32x128 T shapeCasts_S1x4096_S32x128) (constant S_ .f32 0x00000000#32)
        reducesTo_S32x128_S32_d1 h_S_ (ix1 s)
      = Ideal.ofBits .f32 0x00000000#32 + ∑ k : Fin 128, T (ix2 0 (col s k)) := by
  have hR : S32x128.Reduces [1] S32 := by decide
  show Ideal.hostReduceAdd reducesTo_S32x128_S32_d1 (shapeCast S32x128 T shapeCasts_S1x4096_S32x128)
      (Ideal.ofBits .f32 0x00000000#32) (ix1 s) = _
  rw [Ideal.hostReduceAdd_single reducesTo_S32x128_S32_d1 hR]
  show _ + ∑ k : Fin 128, shapeCast S32x128 T shapeCasts_S1x4096_S32x128 (hR.lift (ix1 s) k) = _
  refine congrArg (fun z => Ideal.ofBits .f32 0x00000000#32 + z) (Finset.sum_congr rfl fun k _ => ?_)
  refine shapeCast_apply T shapeCasts_S1x4096_S32x128 (hR.lift (ix1 s) k) (ix2 0 (col s k)) ?_
  rw [Shape.rowMajor_val_two, Shape.rowMajor_val_two]
  show 0 * 4096 + (128 * s.val + k.val) = s.val * 128 + k.val
  omega

end Cert.HostTail
-- ==== Proof.RefSide.lean ====
/-
  The reference program read index by index.

  The hidden axis of length 4096 is split into 32 seeds of 128 columns each: column 128·s + c belongs to seed s.
  Three facts are proved here, all at the extended reals.
  * The blended output at row b and column 128·s + c is a selection, on integer conditions of seed s alone, among
    three blends of the input element x[b, 128·s + c] with the gathered weight w[s, c]; outside the active
    lifecycle range it is the input element itself.
  * The per-seed sum is the initial value plus the double sum, over all rows b and all columns c of the seed,
    of x[b, 128·s + c]; the per-seed sum of squares is the same double sum of the squared elements.
  The double sums come from the definition of the host's reduction: the set of indices (b, s', c) of the
  [8192, 32, 128] view whose middle coordinate is s is the image of the pairs (b, c) under (b, c) ↦ (b, s, c).
-/
import proofs.«169301_j22883585753475_2_alg».proof.Proof.Gen.ReferenceIdeal.Read
import Idealize.ShloMosaic.Lib.ValueIdx
import Idealize.ShloMosaic.Lib.Pipeline.Value
import Idealize.ShloMosaic.PureOps.Ideal.Laws

noncomputable section

open scoped BigOperators

namespace Cert.RefSide

open Idealize.ShloMosaic Idealize.ShloMosaic.ValueIdx Cert.ReferenceIdeal Cert.ReferenceIdeal.Read Cert.ReferenceIdeal.Gen

/-- Column c of seed s, as a column of the [8192, 4096] array: 128·s + c. -/
def col (s : Fin 32) (c : Fin 128) : Fin 4096 := ⟨128 * s.val + c.val, by omega⟩

theorem col_val (s : Fin 32) (c : Fin 128) : (col s c).val = 128 * s.val + c.val := rfl

/-! ## Index arithmetic: the two reshapes between [8192, 4096] and [8192, 32, 128] -/

/-- Element (b, 128·s + c) of the flat array is element (b, s, c) of the three-axis view: same row-major position. -/
theorem idx_v50_col (b : Fin 8192) (s : Fin 32) (c : Fin 128) :
    Read.idx_main_v50 (ix2 b (col s c)) = ix3 b s c := by
  have hb := b.isLt; have hs := s.isLt; have hc := c.isLt
  funext a
  refine Fin.ext ?_
  match a with
  | ⟨0, _⟩ => show (b.val * 4096 + (128 * s.val + c.val)) / 4096 = b.val; omega
  | ⟨1, _⟩ => show (b.val * 4096 + (128 * s.val + c.val)) / 128 % 32 = s.val; omega
  | ⟨2, _⟩ => show (b.val * 4096 + (128 * s.val + c.val)) % 128 = c.val; omega

/-- And back: element (b, s, c) of the three-axis view is element (b, 128·s + c) of the flat array. -/
theorem idx_v0_ix3 (b : Fin 8192) (s : Fin 32) (c : Fin 128) :
    Read.idx_main_v0 (ix3 b s c) = ix2 b (col s c) := by
  have hb := b.isLt; have hs := s.isLt; have hc := c.isLt
  funext a
  refine Fin.ext ?_
  match a with
  | ⟨0, _⟩ => show ((b.val * 32 + s.val) * 128 + c.val) / 4096 = b.val; omega
  | ⟨1, _⟩ => show ((b.val * 32 + s.val) * 128 + c.val) % 4096 = 128 * s.val + c.val; omega

/-! ## Index arithmetic: the broadcasts, read at (b, s, c)

Every per-seed quantity (the lifecycle state, the strategy, the blend factor) is broadcast along the row axis and
the column axis, so at (b, s, c) it is read at s; the gathered weight is broadcast along the row axis only, so it is
read at (s, c). -/

theorem idx_active (b : Fin 8192) (s : Fin 32) (c : Fin 128) :
    Read.idx_main_v48 (Read.idx_main_call2_v0 (ix3 b s c)) = ix1 s := by
  funext a; match a with | ⟨0, _⟩ => rfl

theorem idx_strat0 (b : Fin 8192) (s : Fin 32) (c : Fin 128) :
    Read.idx_main_v41 (Read.idx_main_call1_v0 (ix3 b s c)) = ix1 s := by
  funext a; match a with | ⟨0, _⟩ => rfl

theorem idx_strat1 (b : Fin 8192) (s : Fin 32) (c : Fin 128) :
    Read.idx_main_v41 (Read.idx_main_call0_v0 (ix3 b s c)) = ix1 s := by
  funext a; match a with | ⟨0, _⟩ => rfl

theorem idx_alpha (b : Fin 8192) (s : Fin 32) (c : Fin 128) :
    Read.idx_main_v26 (Read.idx_main_v28 (Read.idx_main_v30 (ix3 b s c))) = ix1 s := by
  funext a; match a with | ⟨0, _⟩ => rfl

theorem idx_one_minus_alpha (b : Fin 8192) (s : Fin 32) (c : Fin 128) :
    Read.idx_main_v26 (Read.idx_main_v34 (ix3 b s c)) = ix1 s := by
  funext a; match a with | ⟨0, _⟩ => rfl

theorem idx_w_blend (b : Fin 8192) (s : Fin 32) (c : Fin 128) :
    Read.idx_main_v27 (Read.idx_main_v30 (ix3 b s c)) = ix2 s c := by
  funext a; match a with | ⟨0, _⟩ => rfl | ⟨1, _⟩ => rfl

theorem idx_w_mul (b : Fin 8192) (s : Fin 32) (c : Fin 128) :
    Read.idx_main_v27 (Read.idx_main_v37 (ix3 b s c)) = ix2 s c := by
  funext a; match a with | ⟨0, _⟩ => rfl | ⟨1, _⟩ => rfl

theorem idx_w_add (b : Fin 8192) (s : Fin 32) (c : Fin 128) :
    Read.idx_main_v27 (Read.idx_main_v39 (ix3 b s c)) = ix2 s c := by
  funext a; match a with | ⟨0, _⟩ => rfl | ⟨1, _⟩ => rfl

/-! ## The blended output at row b, column 128·s + c -/

/-- The output element: where the seed's lifecycle state lies in [3, 6], the blend its strategy names — strategy 0
    the convex combination (alpha·w)·x + (1 − alpha)·x, strategy 1 the product w·x, any other the sum x + w —
    and elsewhere the input element. The operations stand in the program's own order. -/
theorem out_apply (x0 : S8192x4096.Idx → Ideal .f32) (x1 x2 x3 : S32.Idx → BitVec 32) (x4 : S32.Idx → Ideal .f32)
    (x5 : S10x4096.Idx → Ideal .f32) (b : Fin 8192) (s : Fin 32) (c : Fin 128) :
    Read.val_main_v50 (F := Ideal) x0 x1 x2 x3 x4 x5 (ix2 b (col s c))
      = Scalar.select (IntOp.andi (IntOp.cmpi .sge (x1 (ix1 s)) 3#32) (IntOp.cmpi .sle (x1 (ix1 s)) 6#32))
          (Scalar.select (IntOp.cmpi .eq (x3 (ix1 s)) 0#32)
            ((x4 (ix1 s) * Read.val_main_v20 (F := Ideal) x2 x5 (ix2 s c)) * x0 (ix2 b (col s c))
              + (Ideal.ofBits .f32 0x3F800000#32 - x4 (ix1 s)) * x0 (ix2 b (col s c)))
            (Scalar.select (IntOp.cmpi .eq (x3 (ix1 s)) 1#32)
              (Read.val_main_v20 (F := Ideal) x2 x5 (ix2 s c) * x0 (ix2 b (col s c)))
              (x0 (ix2 b (col s c)) + Read.val_main_v20 (F := Ideal) x2 x5 (ix2 s c))))
          (x0 (ix2 b (col s c))) := by
  rw [Read.val_main_v50_apply, idx_v50_col]
  simp only [Read.val_main_v49_apply, Read.val_main_call2_v0_apply, Read.val_main_v48_apply, Read.val_main_v25_apply,
    Read.val_main_v24_apply, Read.val_main_v22_apply, Read.val_main_v23_apply, Read.val_main_v21_apply,
    Read.val_main_c_3_apply, Read.val_main_c_4_apply,
    Read.val_main_v47_apply, Read.val_main_call1_v0_apply, Read.val_main_v43_apply, Read.val_main_v41_apply,
    Read.val_main_v42_apply, Read.val_main_c_5_apply,
    Read.val_main_v36_apply, Read.val_main_v31_apply, Read.val_main_v30_apply, Read.val_main_v29_apply,
    Read.val_main_v28_apply, Read.val_main_v27_apply, Read.val_main_v26_apply,
    Read.val_main_v35_apply, Read.val_main_v34_apply, Read.val_main_v33_apply, Read.val_main_v32_apply,
    Read.val_main_cst_apply,
    Read.val_main_v46_apply, Read.val_main_call0_v0_apply, Read.val_main_v45_apply, Read.val_main_v44_apply,
    Read.val_main_c_6_apply,
    Read.val_main_v38_apply, Read.val_main_v37_apply, Read.val_main_v40_apply, Read.val_main_v39_apply,
    Read.val_main_v0_apply]
  simp only [idx_active, idx_strat0, idx_strat1, idx_alpha, idx_one_minus_alpha, idx_w_blend, idx_w_mul, idx_w_add,
    idx_v0_ix3, Ideal.mulf_def, Ideal.addf_def, Ideal.subf_def, Ideal.ofBits_def]

/-! ## The per-seed sums: the host's reduction over the row axis and the column axis -/

/-- Dropping the row and the column of (b, s, c) leaves the seed s. -/
theorem drop_ix3 (h : S8192x32x128.ReducesTo [0, 2] S32) (b : Fin 8192) (s : Fin 32) (c : Fin 128) :
    h.drop (ix3 b s c) = ix1 s := by
  funext a
  match a with
  | ⟨0, _⟩ => exact Fin.ext (Shape.ReducesTo.drop_apply_val_of_eq h (ix3 b s c) 0 1)

/-- An index that drops to the seed s is (its row, s, its column). -/
theorem eq_ix3_of_drop (h : S8192x32x128.ReducesTo [0, 2] S32) (i : S8192x32x128.Idx) (s : Fin 32)
    (hd : h.drop i = ix1 s) : i = ix3 (i 0) s (i 2) := by
  have h1 : ((i 1 : Fin 32) : Nat) = s.val :=
    (Shape.ReducesTo.drop_apply_val_of_eq h i 0 1).symm.trans (congrArg Fin.val (congrFun hd 0))
  funext a
  match a with
  | ⟨0, _⟩ => rfl
  | ⟨1, _⟩ => exact Fin.ext h1
  | ⟨2, _⟩ => rfl

/-- The pairs (row, column) placed at seed s: an injection into the indices of the three-axis view. -/
def seedEmb (s : Fin 32) : Fin 8192 × Fin 128 ↪ S8192x32x128.Idx :=
  ⟨fun p => ix3 p.1 s p.2, fun p q hpq => Prod.ext (congrFun hpq 0) (congrFun hpq 2)⟩

/-- The indices the reduction sums at seed s are exactly the (b, s, c). -/
theorem filter_drop (h : S8192x32x128.ReducesTo [0, 2] S32) (s : Fin 32)
    [DecidablePred fun i : S8192x32x128.Idx => h.drop i = ix1 s] :
    Finset.univ.filter (fun i : S8192x32x128.Idx => h.drop i = ix1 s) = Finset.univ.map (seedEmb s) := by
  ext i
  simp only [Finset.mem_filter, Finset.mem_univ, true_and, Finset.mem_map, seedEmb, Function.Embedding.coeFn_mk]
  exact ⟨fun hd => ⟨(i 0, i 2), (eq_ix3_of_drop h i s hd).symm⟩, fun ⟨p, hp⟩ => hp ▸ drop_ix3 h p.1 s p.2⟩

/-- The host's sum over rows and columns of any array f of the three-axis view, at seed s: the initial value plus
    the double sum of f (b, s, c). -/
theorem hostReduceAdd_seed (h : S8192x32x128.ReducesTo [0, 2] S32) (f : S8192x32x128.Idx → EReal) (init : EReal)
    (s : Fin 32) :
    Ideal.hostReduceAdd h f init (ix1 s) = init + ∑ b : Fin 8192, ∑ c : Fin 128, f (ix3 b s c) := by
  unfold Ideal.hostReduceAdd
  rw [filter_drop h s, Finset.sum_map, Fintype.sum_prod_type]
  exact congrArg (init + ·) (Finset.sum_congr rfl fun b _ => Finset.sum_congr rfl fun c _ => rfl)

/-- The per-seed sum of the input. -/
theorem tsum_apply (x0 : S8192x4096.Idx → Ideal .f32) (s : Fin 32) :
    Read.val_main_v51 (F := Ideal) x0 (ix1 s)
      = Ideal.ofBits .f32 0x00000000#32 + ∑ b : Fin 8192, ∑ c : Fin 128, x0 (ix2 b (col s c)) := by
  show Ideal.hostReduceAdd reducesTo_S8192x32x128_S32_d0_2 (Read.val_main_v0 (F := Ideal) x0)
    (Ideal.ofBits .f32 0x00000000#32) (ix1 s) = _
  rw [hostReduceAdd_seed]
  simp only [Read.val_main_v0_apply, idx_v0_ix3]

/-- The per-seed sum of the squares of the input. -/
theorem tsumsq_apply (x0 : S8192x4096.Idx → Ideal .f32) (s : Fin 32) :
    Read.val_main_v53 (F := Ideal) x0 (ix1 s)
      = Ideal.ofBits .f32 0x00000000#32
        + ∑ b : Fin 8192, ∑ c : Fin 128, x0 (ix2 b (col s c)) * x0 (ix2 b (col s c)) := by
  show Ideal.hostReduceAdd reducesTo_S8192x32x128_S32_d0_2 (Read.val_main_v52 (F := Ideal) x0)
    (Ideal.ofBits .f32 0x00000000#32) (ix1 s) = _
  rw [hostReduceAdd_seed]
  simp only [Read.val_main_v52_apply, Read.val_main_v0_apply, idx_v0_ix3, Ideal.mulf_def]

end Cert.RefSide

end
-- ==== Proof.FiniteInputs.lean ====
/-
  Finiteness of the float inputs, read out of the precondition.

  The precondition says, of each of the three float arrays, that every entry has
  absolute value strictly below +∞ (the word 0x7F800000), the three statements joined
  by "and". Over the extended reals the absolute value of x is max x (-x), which is +∞
  at both infinities, so the strict bound leaves exactly the real numbers: every entry
  of each array is the image of a real.
-/
import proofs.«169301_j22883585753475_2_alg».proof.Pre_finite_inputs
import Idealize.ShloMosaic.PureOps.Ideal
import Idealize.ShloMosaic.Lib.ReduceAll
import Idealize.ShloMosaic.Lib.ValueIdx

namespace Cert.FiniteInputs

open Idealize.ShloMosaic Idealize.ShloMosaic.ValueIdx Cert.Pre_finite_inputs

/-- The word 0x7F800000 denotes +∞. -/
theorem ofBits_inf : Ideal.ofBits .f32 0x7F800000#32 = (⊤ : EReal) := by
  simp [Ideal.ofBits, Ideal.ieee]

/-- An extended real whose absolute value max x (-x) is strictly below +∞ is a real number:
    at -∞ and at +∞ the absolute value is +∞ itself. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The rank-0 shape has one index. -/
instance : Subsingleton S_.Idx := ⟨fun a b => funext fun d => d.elim0⟩

/-- One array's part of the precondition: if the "and" over all entries of |a| < +∞ is 1, every entry of a is real. -/
theorem real_of_all {S : Shape} {axes : List (Fin S.rank)} (a : FVec Ideal S .f32)
    (hb : S_.BroadcastsInDim S (![] : Fin 0 → Fin S.rank)) (hr : S.ReducesTo axes S_) (hu : 0 < S_.numel)
    (e : Host.reduce IntOp.andi
          (cmpf .olt (Host.absf a) (broadcastInDim S ![] hb (constant (F := Ideal) S_ .f32 0x7F800000#32)))
          (constantI S_ 1 1#1) hr hu ix0 = 1#1) (i : S.Idx) : ∃ r : ℝ, a i = (r : EReal) :=
  real_of_abs_lt_inf (a i) (Host.reduce_andi_all _ _ hr hu ix0 e i)

variable [Facts]

/-- Under the precondition every entry of the three float inputs is a real number. -/
theorem real_of_pre (a0 : FVec Ideal S8192x4096 .f32) (a1 a2 a3 : IVec S32 32) (a4 : FVec Ideal S32 .f32)
    (a5 : FVec Ideal S10x4096 .f32)
    (h : Cert.Pre_finite_inputs.fn (F := Ideal) a0 a1 a2 a3 a4 a5 = fun _ => 1#1) :
    (∀ i, ∃ r : ℝ, a0 i = (r : EReal)) ∧ (∀ i, ∃ r : ℝ, a4 i = (r : EReal)) ∧ (∀ i, ∃ r : ℝ, a5 i = (r : EReal)) := by
  have h0 := congrFun h ValueIdx.ix0
  dsimp only [Cert.Pre_finite_inputs.fn] at h0
  obtain ⟨h01, h5⟩ := IntOp.andi_eq_one.1 h0
  obtain ⟨h0', h4⟩ := IntOp.andi_eq_one.1 h01
  exact ⟨fun i => real_of_all a0 _ _ _ h0' i, fun i => real_of_all a4 _ _ _ h4 i, fun i => real_of_all a5 _ _ _ h5 i⟩

end Cert.FiniteInputs
-- ==== Proof.Bridge.lean ====
/-
  The two programs compute one function. With x the input matrix, w the gathered weights, α the blend factors and the
  seeds' switches, the kernel's output array is x · m + a for the two coefficient rows the host prepared, and the
  reference's is the case-by-case blend; they agree entry by entry because every entry of x, α and w is a real number
  (the precondition; a gathered weight is an entry of the weight table). The kernel's per-seed totals are the column
  sums, accumulated tile by tile over the rows and then summed over the seed's 128 columns; the reference's are the sums
  over all rows and the seed's columns: the same finite sums in another order. The fourth result is one constant vector
  on both sides.
-/
import proofs.«169301_j22883585753475_2_alg».proof.Defs
import proofs.«169301_j22883585753475_2_alg».proof.Proof.Gen.Kernel.Frame
import proofs.«169301_j22883585753475_2_alg».proof.Proof.Gen.KernelIdeal.Frame
import proofs.«169301_j22883585753475_2_alg».proof.Proof.Gen.ReferenceIdeal.Run
import proofs.«169301_j22883585753475_2_alg».proof.Proof.Gen.ReferenceIdeal.Read
import proofs.«169301_j22883585753475_2_alg».proof.Proof.Gen.Pre_finite_inputs
import proofs.«169301_j22883585753475_2_alg».proof.Proof.KernelArrays
import proofs.«169301_j22883585753475_2_alg».proof.Proof.HostPrefix
import proofs.«169301_j22883585753475_2_alg».proof.Proof.HostTail
import proofs.«169301_j22883585753475_2_alg».proof.Proof.RefSide
import proofs.«169301_j22883585753475_2_alg».proof.Proof.FiniteInputs
import proofs.«169301_j22883585753475_2_alg».proof.Proof.Spec

set_option maxRecDepth 16384

noncomputable section

open Idealize.ShloMosaic Idealize.ShloMosaic.TcCoe Idealize.SL.Sem Idealize.ShloMosaic.ValueIdx
open scoped BigOperators

namespace Cert.Bridge

open Cert.KernelIdeal Cert.KernelIdeal.Gen Cert.KernelIdeal.Arrays

/-- The three spellings of "column 128·s + k" are one. -/
theorem col_hp (s : Fin 32) (k : Fin 128) : Cert.HostPrefix.col s k = Cert.Spec.col s k := rfl
theorem col_ht (s : Fin 32) (k : Fin 128) : Cert.HostTail.col s k = Cert.Spec.col s k := rfl
theorem col_rs (s : Fin 32) (k : Fin 128) : Cert.RefSide.col s k = Cert.Spec.col s k := rfl

/-- The kernel's host side and the reference gather the same weights. -/
theorem wK_eq (x2 : S32.Idx → BitVec 32) (x5 : S10x4096.Idx → Ideal .f32) :
    Cert.HostPrefix.wK (F := Ideal) x2 x5 = Cert.ReferenceIdeal.Read.val_main_v20 (F := Ideal) x2 x5 := rfl

/-- A gathered weight is an entry of the weight table, hence real when the table is. -/
theorem wK_real (x2 : S32.Idx → BitVec 32) (x5 : S10x4096.Idx → Ideal .f32) (h5 : ∀ i, ∃ r : ℝ, x5 i = (r : EReal))
    (i : S32x128.Idx) : ∃ r : ℝ, Cert.HostPrefix.wK (F := Ideal) x2 x5 i = (r : EReal) := by
  unfold Cert.HostPrefix.wK Host.gather shapeCast
  exact h5 _

/-- What the precondition says of the kernel program's inputs: every float entry is real. -/
theorem reals_of_pre [Cert.Pre_finite_inputs.Facts] (m : (ℓ : Loc nD τ sig) → Buf (Elt Ideal) ℓ) (hpre : Cert.Pre_KernelIdeal m) (c : Dev nD) :
    (∀ i, ∃ r : ℝ, X m c i = (r : EReal))
      ∧ (∀ i, ∃ r : ℝ, ((m ((c.tc : Thread nD τ).loc main_arg4)) : S32.Idx → Ideal .f32) i = (r : EReal))
      ∧ (∀ i, ∃ r : ℝ, ((m ((c.tc : Thread nD τ).loc main_arg5)) : S10x4096.Idx → Ideal .f32) i = (r : EReal)) :=
  Cert.FiniteInputs.real_of_pre _ _ _ _ _ _ (hpre c)

/-- ENTRY BY ENTRY, the kernel's blended array is the reference's first result. -/
theorem out_eq [Cert.Pre_finite_inputs.Facts] (m : (ℓ : Loc nD τ sig) → Buf (Elt Ideal) ℓ) (hpre : Cert.Pre_KernelIdeal m) (c : Dev nD) :
    OUT m c = Cert.ReferenceIdeal.Read.val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  obtain ⟨h0, h4, h5⟩ := reals_of_pre m hpre c
  funext i
  obtain ⟨b, q, rfl⟩ : ∃ (b : Fin 8192) (q : Fin 4096), i = ix2 b q := ⟨i 0, i 1, eq_ix2 i⟩
  obtain ⟨s, k, rfl⟩ := Cert.HostPrefix.exists_col q
  have e1 : Cert.HostPrefix.col s k = Cert.RefSide.col s k := rfl
  show X m c (ix2 b (Cert.HostPrefix.col s k)) * Mrow m c (ix2 (0 : Fin 1) (Cert.HostPrefix.col s k))
      + Arow m c (ix2 (0 : Fin 1) (Cert.HostPrefix.col s k)) = _
  rw [show Mrow m c = _ from Cert.HostPrefix.V_m m c, show Arow m c = _ from Cert.HostPrefix.V_a m c,
    Cert.HostPrefix.mTerm_apply, Cert.HostPrefix.aTerm_apply]
  rw [Cert.Spec.blend_eq _ _ _ _ _ (h0 _) (h4 _) (wK_real _ _ h5 _)]
  rw [e1, Cert.RefSide.out_apply, wK_eq]

/-- PER SEED, the kernel's total of column sums is the reference's sum over all rows and the seed's columns. -/
theorem tsum_eq (m : (ℓ : Loc nD τ sig) → Buf (Elt Ideal) ℓ) (c : Dev nD) :
    (Pipeline.afterTail₀ cfgs (dats m) 0 (V0 m) [hostOps1] c main_v58 : S32.Idx → Ideal .f32)
      = Cert.ReferenceIdeal.Read.val_main_v51 (F := Ideal) (m ((c.tc : Thread nD τ).loc main_arg0)) := by
  rw [Cert.HostTail.tail_sum m c _ rfl]
  funext j
  obtain ⟨s, rfl⟩ : ∃ s : Fin 32, j = ix1 s := ⟨j 0, eq_ix1 j⟩
  rw [Cert.HostTail.rowsum_apply, Cert.RefSide.tsum_apply]
  congr 1
  show ∑ k : Fin 128, T4 m c (ix2 (0 : Fin 1) (Cert.Spec.col s k))
    = ∑ b : Fin 8192, ∑ k : Fin 128, X m c (ix2 b (Cert.Spec.col s k))
  exact (Finset.sum_congr rfl fun k _ => final4_apply m c (Cert.Spec.col s k)).trans
    (Cert.Spec.seed_total (fun b h => X m c (ix2 b h)) s)

/-- Likewise for the totals of squares. -/
theorem tsumsq_eq (m : (ℓ : Loc nD τ sig) → Buf (Elt Ideal) ℓ) (c : Dev nD) :
    (Pipeline.afterTail₀ cfgs (dats m) 0 (V0 m) [hostOps1] c main_v60 : S32.Idx → Ideal .f32)
      = Cert.ReferenceIdeal.Read.val_main_v53 (F := Ideal) (m ((c.tc : Thread nD τ).loc main_arg0)) := by
  rw [Cert.HostTail.tail_sumsq m c _ rfl]
  funext j
  obtain ⟨s, rfl⟩ : ∃ s : Fin 32, j = ix1 s := ⟨j 0, eq_ix1 j⟩
  rw [Cert.HostTail.rowsum_apply, Cert.RefSide.tsumsq_apply]
  congr 1
  show ∑ k : Fin 128, T5 m c (ix2 (0 : Fin 1) (Cert.Spec.col s k))
    = ∑ b : Fin 8192, ∑ k : Fin 128, X m c (ix2 b (Cert.Spec.col s k)) * X m c (ix2 b (Cert.Spec.col s k))
  exact (Finset.sum_congr rfl fun k _ => final5_apply m c (Cert.Spec.col s k)).trans
    (Cert.Spec.seed_total (fun b h => X m c (ix2 b h) * X m c (ix2 b h)) s)

/-- THE KERNEL PROGRAM'S RUN, READ: its four results as functions of the arguments, the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v56_0) = OUT m c
      ∧ r.2.mem ((c.tc : Thread nD τ).loc main_v58) = Pipeline.afterTail₀ cfgs (dats m) 0 (V0 m) [hostOps1] c main_v58
      ∧ r.2.mem ((c.tc : Thread nD τ).loc main_v60) = Pipeline.afterTail₀ cfgs (dats m) 0 (V0 m) [hostOps1] c main_v60
      ∧ r.2.mem ((c.tc : Thread nD τ).loc main_v61) = Pipeline.afterTail₀ cfgs (dats m) 0 (V0 m) [hostOps1] c main_v61
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 3).trans (final3 m c),
      (h c).2 main_v58 (Pipeline.mem_restRefs_of main_v58 (by decide) (by decide)),
      (h c).2 main_v60 (Pipeline.mem_restRefs_of main_v60 (by decide) (by decide)),
      (h c).2 main_v61 (Pipeline.mem_restRefs_of main_v61 (by decide) (by decide)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.Bridge

end
-- ==== Proof.Claims.lean ====
/-
  The five claims: the three frames, the empty idealization ledger, and the equality of the two programs' results.
-/
import proofs.«169301_j22883585753475_2_alg».proof.Proof.Bridge

set_option maxRecDepth 16384

noncomputable section

open Idealize.ShloMosaic Idealize.ShloMosaic.TcCoe Idealize.SL.Sem Idealize.ShloMosaic.ValueIdx

namespace Cert.Proof.Claims

open Cert.KernelIdeal.Arrays

theorem frame_k [Cert.Kernel.Facts] [Cert.Pre_finite_inputs.Facts] : Cert.frame_Kernel := fun m ρ _ => Cert.Kernel.Gen.frame m ρ
theorem frame_ki [Cert.KernelIdeal.Facts] [Cert.Pre_finite_inputs.Facts] : Cert.frame_KernelIdeal := fun m ρ _ => Cert.KernelIdeal.Gen.frame m ρ
/-- The reference has no kernel: its frame is its run with the results dropped. -/
theorem frame_ri [Cert.ReferenceIdeal.Facts] [Cert.Pre_finite_inputs.Facts] : Cert.frame_ReferenceIdeal := fun m ρ _ =>
  (θ_run Cert.ReferenceIdeal.defs _ _).mono (fun _ h c => (h c).2.2.2.2) (Cert.ReferenceIdeal.Value.run (F := Ideal) m ρ)

/-- The idealization rewrote nothing. -/
theorem preserves : Cert.preserves_Kernel_KernelIdeal := trivial

set_option maxHeartbeats 4000000 in
/-- Both programs, run from memories that agree on the arguments, end with the same four results. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => OUT m c,
    fun c => Pipeline.afterTail₀ Cert.KernelIdeal.cfgs (Cert.KernelIdeal.Gen.dats m) 0 (Cert.KernelIdeal.Gen.V0 m) [Cert.KernelIdeal.Gen.hostOps1] c Cert.KernelIdeal.main_v58,
    fun c => Pipeline.afterTail₀ Cert.KernelIdeal.cfgs (Cert.KernelIdeal.Gen.dats m) 0 (Cert.KernelIdeal.Gen.V0 m) [Cert.KernelIdeal.Gen.hostOps1] c Cert.KernelIdeal.main_v60,
    fun c => Pipeline.afterTail₀ Cert.KernelIdeal.cfgs (Cert.KernelIdeal.Gen.dats m) 0 (Cert.KernelIdeal.Gen.V0 m) [Cert.KernelIdeal.Gen.hostOps1] c Cert.KernelIdeal.main_v61,
    Cert.Bridge.kernel_run m ρ, ?_⟩
  refine (θ_run Cert.ReferenceIdeal.defs _ _).mono (fun _ h c => ?_) (Cert.ReferenceIdeal.Value.run (F := Ideal) m' ρ')
  obtain ⟨h50, h51, h53, h54, hargs⟩ := h c
  obtain ⟨a0, a1, a2, a3, a4, a5⟩ := hagree c
  refine ⟨h50.trans ?_, h51.trans ?_, h53.trans ?_, h54.trans ?_, hargs⟩
  · rw [Cert.ReferenceIdeal.Read.val_main_v50_eq, a0, a1, a2, a3, a4, a5]
    exact (Cert.Bridge.out_eq m hpre c).symm
  · rw [Cert.ReferenceIdeal.Read.val_main_v51_eq, a0]
    exact (Cert.Bridge.tsum_eq m c).symm
  · rw [Cert.ReferenceIdeal.Read.val_main_v53_eq, a0]
    exact (Cert.Bridge.tsumsq_eq m c).symm
  · exact (Cert.HostTail.tail_count m c).symm

end Cert.Proof.Claims

end
-- ==== Proof.lean ====
/-
  The certificate of the blend-and-telemetry kernel against its reference: three frames, the (empty) idealization
  ledger, and the equality of the four results over the extended reals.

  The kernel computes out = x · m + a with two coefficient rows m, a that the host derives from the seeds' switches,
  the blend factors and the gathered weights, and accumulates the column sums of x and of x² over 32 tiles of 256 rows;
  the host then folds the 4096 column sums into 32 per-seed totals. The reference blends case by case and sums over
  rows and a seed's columns directly. Proof/Spec.lean has the two laws that join the sides (distributivity over real
  entries; a sum taken tile by tile), Proof/KernelPieces.lean, KernelChain.lean, KernelPayloads.lean and
  KernelArrays.lean read the kernel's run, Proof/HostPrefix.lean and HostTail.lean the host operations around it,
  Proof/RefSide.lean the reference, Proof/FiniteInputs.lean the precondition, Proof/Bridge.lean joins the two sides, and Proof/Claims.lean states the claims.
-/
import proofs.«169301_j22883585753475_2_alg».proof.Defs
import proofs.«169301_j22883585753475_2_alg».proof.Proof.Gen.Kernel
import proofs.«169301_j22883585753475_2_alg».proof.Proof.Gen.KernelIdeal
import proofs.«169301_j22883585753475_2_alg».proof.Proof.Gen.ReferenceIdeal
import proofs.«169301_j22883585753475_2_alg».proof.Proof.Gen.Pre_finite_inputs
import proofs.«169301_j22883585753475_2_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
